-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S4096 : Shape := ⟨1, ![4096]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn_part1 {F : FTy → Type} [FloatOps F] (main_arg4 : FVec F S4096x2048 .f32) (main_arg5 : FVec F S4096x2048 .f32) (main_arg6 : FVec F S4096x2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S4096x2048 .f32 := Host.absf main_arg4
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S4096x2048 .f32 := Host.absf main_arg6
  let main_cst_10 : FVec F S_ .f32 := constant S_ .f32 0x7F800000#32
  let main_v30 : FVec F S4096x2048 .f32 := broadcastInDim S4096x2048 ![] bcast_S_S4096x2048 main_cst_10
  let main_v31 : IVec S4096x2048 1 := cmpf .olt main_v29 main_v30
  let main_c_11 : IVec S_ 1 := constantI S_ 1 1#1
  let main_v32 : IVec S_ 1 := (fun x v => Host.reduce IntOp.andi x v reducesTo_S4096x2048_S_d0_1 h_S_) main_v31 main_c_11
  let main_v33 : IVec S_ 1 := andi main_v28 main_v32
  main_v33

def fn {F : FTy → Type} [FloatOps F] (main_arg0 : FVec F S4096x2048 .f32) (main_arg1 : FVec F S4096x2048 .f32) (main_arg2 : FVec F S4096x2048 .f32) (main_arg3 : FVec F S4096x2048 .f32) (main_arg4 : FVec F S4096x2048 .f32) (main_arg5 : FVec F S4096x2048 .f32) (main_arg6 : FVec F S4096x2048 .f32) (main_arg7 : IVec S4096 32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_v13 main_v16
-- ==== Kernel.lean ====
abbrev S4096x2048 : Shape := ⟨2, ![4096, 2048]⟩
abbrev S4096 : Shape := ⟨1, ![4096]⟩
abbrev S4096x1 : Shape := ⟨2, ![4096, 1]⟩
abbrev S4096x4 : Shape := ⟨2, ![4096, 4]⟩
abbrev S256x2048 : Shape := ⟨2, ![256, 2048]⟩
abbrev S256x1 : Shape := ⟨2, ![256, 1]⟩
abbrev S256x4 : Shape := ⟨2, ![256, 4]⟩
abbrev S256 : Shape := ⟨1, ![256]⟩
abbrev S_ : Shape := ⟨0, ![]⟩
abbrev S1 : Shape := ⟨1, ![1]⟩
abbrev S5 : Shape := ⟨1, ![5]⟩

abbrev nBuf : Space → Nat
  | .hbm => 45
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096, .i32⟩
  | .hbm, ⟨8, _⟩ => ⟨S4096x1, .i32⟩
  | .hbm, ⟨9, _⟩ => ⟨S4096x4, .f32⟩
  | .hbm, ⟨10, _⟩ => ⟨S4096x1, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4096x1, .f32⟩
  | .hbm, ⟨17, _⟩ => ⟨S4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S4096x1, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096x1, .f32⟩
  | .hbm, ⟨31, _⟩ => ⟨S4096, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S1, .f32⟩
  | .hbm, ⟨40, _⟩ => ⟨S1, .f32⟩
  | .hbm, ⟨41, _⟩ => ⟨S1, .f32⟩
  | .hbm, ⟨42, _⟩ => ⟨S1, .f32⟩
  | .hbm, ⟨43, _⟩ => ⟨S1, .f32⟩
  | .hbm, ⟨44, _⟩ => ⟨S5, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x1, .i32⟩
  | .local _ .vmem, ⟨15, _⟩ => ⟨S256x1, .i32⟩
  | .local _ .vmem, ⟨16, _⟩ => ⟨S256x4, .f32⟩
  | .local _ .vmem, ⟨17, _⟩ => ⟨S256x4, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_cst_4 : Ref sig .tc := ⟨.hbm, 26, rfl⟩
abbrev main_v13 : Ref sig .tc := ⟨.hbm, 27, rfl⟩
abbrev main_cst_5 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_6 : Ref sig .tc := ⟨.hbm, 32, rfl⟩
abbrev main_v17 : Ref sig .tc := ⟨.hbm, 33, rfl⟩
abbrev main_cst_7 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S4096_S4096x1 : S4096.ShapeCasts S4096x1
  iota_S256x2048_d1_w32 : S256x2048.Iotas .tc 32 [1]
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x2048 : S256x1.Broadcasts S256x2048
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  shapeCasts_S256_S256x1 : S256.ShapeCasts S256x1
  concatenates_S256x1_S256x1_S256x1_S256x1_S256x4_d1 : Shape.Concatenates [S256x1, S256x1, S256x1, S256x1] S256x4 1
  inb_S256x4_S256x4_0_0 : ∀ a, (![0, 0] : Fin 2 → Nat) a + S256x4.size a ≤ S256x4.size a
  h_S256x4 : 0 < S256x4.numel
  slices_S4096x4_S4096x1_0_0 : S4096x4.Slices ![0, 0] S4096x1
  shapeCasts_S4096x1_S4096 : S4096x1.ShapeCasts S4096
  reducesTo_S4096_S_d0 : S4096.ReducesTo [0] S_
  h_S_ : 0 < S_.numel
  slices_S4096x4_S4096x1_0_1 : S4096x4.Slices ![0, 1] S4096x1
  slices_S4096x4_S4096x1_0_2 : S4096x4.Slices ![0, 2] S4096x1
  slices_S4096x4_S4096x1_0_3 : S4096x4.Slices ![0, 3] S4096x1
  bcast_S_S1 : S_.BroadcastsInDim S1 (![] : Fin 0 → Fin S1.rank)
  concatenates_S1_S1_S1_S1_S1_S5_d0 : Shape.Concatenates [S1, S1, S1, S1, S1] S5 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S4096x2048.size a
  hwx0_0 : ∀ i : grid0.Coords, EltTy.bits .f32 = 32 ∨ (Rect.block (s := S4096x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x2048.size a
  hwx0_1 : ∀ i : grid0.Coords, EltTy.bits .f32 = 32 ∨ (Rect.block (s := S4096x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S4096x2048.size a
  hwx0_2 : ∀ i : grid0.Coords, EltTy.bits .f32 = 32 ∨ (Rect.block (s := S4096x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S4096x2048.size a
  hwx0_3 : ∀ i : grid0.Coords, EltTy.bits .f32 = 32 ∨ (Rect.block (s := S4096x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S4096x2048.size a
  hwx0_4 : ∀ i : grid0.Coords, EltTy.bits .f32 = 32 ∨ (Rect.block (s := S4096x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S4096x2048.size a
  hwx0_5 : ∀ i : grid0.Coords, EltTy.bits .f32 = 32 ∨ (Rect.block (s := S4096x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S4096x2048.size a
  hwx0_6 : ∀ i : grid0.Coords, EltTy.bits .f32 = 32 ∨ (Rect.block (s := S4096x2048) S256x2048.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S4096x1.size a
  hwx0_7 : ∀ i : grid0.Coords, EltTy.bits .i32 = 32 ∨ (Rect.block (s := S4096x1) S256x1.size (cc0_transform_7 i) (hinb0_7 i)).WholeWords (EltTy.packing .i32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x4.size a ≤ S4096x4.size a
  hwx0_8 : ∀ i : grid0.Coords, EltTy.bits .f32 = 32 ∨ (Rect.block (s := S4096x4) S256x4.size (cc0_transform_8 i) (hinb0_8 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0) S256x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1) S256x4.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S4096 : Shape := ⟨1, ![4096]⟩
abbrev S2048 : Shape := ⟨1, ![2048]⟩
abbrev S1x2048 : Shape := ⟨2, ![1, 2048]⟩
abbrev S4096x1 : Shape := ⟨2, ![4096, 1]⟩
abbrev S_ : Shape := ⟨0, ![]⟩
abbrev S1 : Shape := ⟨1, ![1]⟩
abbrev S5 : Shape := ⟨1, ![5]⟩

abbrev nBuf : Space → Nat
  | .hbm => 86
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096, .i32⟩
  | .hbm, ⟨8, _⟩ => ⟨S2048, .i32⟩
  | .hbm, ⟨9, _⟩ => ⟨S1x2048, .i32⟩
  | .hbm, ⟨10, _⟩ => ⟨S4096x1, .i32⟩
  | .hbm, ⟨11, _⟩ => ⟨S4096x2048, .i32⟩
  | .hbm, ⟨12, _⟩ => ⟨S4096x2048, .i32⟩
  | .hbm, ⟨13, _⟩ => ⟨S4096x2048, .i1⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S4096, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S1, .f32⟩
  | .hbm, ⟨81, _⟩ => ⟨S1, .f32⟩
  | .hbm, ⟨82, _⟩ => ⟨S1, .f32⟩
  | .hbm, ⟨83, _⟩ => ⟨S1, .f32⟩
  | .hbm, ⟨84, _⟩ => ⟨S1, .f32⟩
  | .hbm, ⟨85, _⟩ => ⟨S5, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_cst_10 : Ref sig .tc := ⟨.hbm, 53, rfl⟩
abbrev main_v34 : Ref sig .tc := ⟨.hbm, 54, rfl⟩
abbrev main_cst_11 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_12 : Ref sig .tc := ⟨.hbm, 61, rfl⟩
abbrev main_v40 : Ref sig .tc := ⟨.hbm, 62, rfl⟩
abbrev main_v41 : Ref sig .tc := ⟨.hbm, 63, rfl⟩
abbrev main_cst_13 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_cst_15 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_16 : Ref sig .tc := ⟨.hbm, 73, rfl⟩
abbrev main_v48 : Ref sig .tc := ⟨.hbm, 74, rfl⟩
abbrev main_cst_17 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S4096_S4096x1_0 : S4096.BroadcastsInDim S4096x1 (![0] : Fin 1 → Fin S4096x1.rank)
  bcast_S1x2048_S4096x2048_0_1 : S1x2048.BroadcastsInDim S4096x2048 (![0, 1] : Fin 2 → Fin S4096x2048.rank)
  bcast_S4096x1_S4096x2048_0_1 : S4096x1.BroadcastsInDim S4096x2048 (![0, 1] : Fin 2 → Fin S4096x2048.rank)
  reducesTo_S4096x2048_S4096_d1 : S4096x2048.ReducesTo [1] S4096
  h_S_ : 0 < S_.numel
  reducesTo_S4096_S_d0 : S4096.ReducesTo [0] S_
  bcast_S_S4096x2048 : S_.BroadcastsInDim S4096x2048 (![] : Fin 0 → Fin S4096x2048.rank)
  bcast_S_S4096 : S_.BroadcastsInDim S4096 (![] : Fin 0 → Fin S4096.rank)
  bcast_S_S1 : S_.BroadcastsInDim S1 (![] : Fin 0 → Fin S1.rank)
  concatenates_S1_S1_S1_S1_S1_S5_d0 : Shape.Concatenates [S1, S1, S1, S1, S1] S5 0

variable [Facts₀]

class Facts : Prop extends Facts₀ where

variable [Facts]
-- ==== Proof.KernelFrame.lean ====
/-
  The run of the program around its one launch, at any reading `F` of the floats.

  The program reshapes the length vector to a column, launches one kernel over sixteen grid points, and then
  reduces the kernel's 4096 × 4 result to five numbers on the host. Point `t` of the grid is handed rows
  `256 t … 256 t + 255` of each of the seven 4096 × 2048 arrays and of the length column, and writes rows
  `256 t … 256 t + 255` of the result. The body keeps nothing between points: it loads its eight input blocks whole,
  computes one 256 × 4 value from them, and stores it over the whole output block. So after the body the output
  block is one function (`rowsOut`) of the eight input blocks, every input block is as it was, and the
  launch leaves each argument array as it found it and the result array at the blocks written back. The host
  lines after the launch write only buffers of their own, so the eight arguments also end as they began.
-/
import proofs.«100875_j51651276701971_2_alg».proof.Proof.Gen.Kernel.Launch
import proofs.«100875_j51651276701971_2_alg».proof.Proof.Gen.Kernel.Skeleton
import proofs.«100875_j51651276701971_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the launch finds, and the host lines around it -/

/-- What core `c`'s buffers hold when the launch starts: the initial memory after the one host line before it
    (the length vector reshaped to a column). -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host line allocates. -/
theorem before_fresh : (hostOps0 : List (HloOp τ sig (Elt F))).Forall fun op => op.fresh = ∅ := by
  simp only [List.Forall]; repeat' constructor
theorem tail_fresh0 : (hostOps1 : List (HloOp τ sig (Elt F))).Forall fun op => op.fresh = ∅ := by
  simp only [List.Forall]; repeat' constructor

/-- The program is: the host line before the launch, the launch, then the host lines after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The lines after the launch touch only unscoped buffers: the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh0) op hop
/-- Each writes one buffer of its own, which is none of the nine arrays the launch stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- The reshape before the launch writes only the length column: argument 0 is found as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 1 is found as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 2 is found as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 3 is found as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 4 is found as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 5 is found as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 6 is found as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 7 is found as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))

/-- Argument 7, the length vector, is no array of the launch (its reshaped column is), and no host line after the
    launch writes it: it ends as launched. -/
theorem final_arg7 (dats : (p : Fin _) → (c : Dev nD) → Dat τ (Elt F) Unit ℕ (UR sig nD τ) ℕ (cfgs p) c) (c : Dev nD) :
    Pipeline.afterTail₀ cfgs dats 0 (entry0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg7 (by exact (by decide : ∀ w, Pipeline.arrRef spec0 w ≠ main_arg7))]
  exact entry_arg7 m c

/-! ## The blocks -/

/-- Window `w`'s block at grid point `t`: rows `256 t … 256 t + 255` of its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's staging buffer holds its block when the body starts at a point, whenever the body leaves
    input blocks in place. -/
theorem before_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block when the body starts at a point, whenever the body leaves
    input blocks in place. -/
theorem before_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block when the body starts at a point, whenever the body leaves
    input blocks in place. -/
theorem before_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block when the body starts at a point, whenever the body leaves
    input blocks in place. -/
theorem before_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block when the body starts at a point, whenever the body leaves
    input blocks in place. -/
theorem before_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block when the body starts at a point, whenever the body leaves
    input blocks in place. -/
theorem before_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds its block when the body starts at a point, whenever the body leaves
    input blocks in place. -/
theorem before_in6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's staging buffer holds its block when the body starts at a point, whenever the body leaves
    input blocks in place. -/
theorem before_in7 {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## What the body writes -/

/-- The rectangle every load takes: a whole 256 × 2048 block, -/
abbrev wholeIn : Rect S256x2048 := Rect.unit (s := S256x2048) ![0, 0] S256x2048.size inb_S256x2048_S256x2048_0_0
/-- the whole 256 × 1 block of lengths, -/
abbrev wholeLen : Rect S256x1 := Rect.unit (s := S256x1) ![0, 0] S256x1.size inb_S256x1_S256x1_0_0
/-- and the whole 256 × 4 output block, which the one store covers. -/
abbrev wholeOut : Rect S256x4 := Rect.unit (s := S256x4) ![0, 0] S256x4.size inb_S256x4_S256x4_0_0

/-- The output block after the body, as a function of the eight input blocks: the four per-row losses of the
    256 rows, side by side (the body's one store, over its whole block). -/
def rowsOut (x0 x1 x2 x3 x4 x5 x6 : Vec F S256x2048 .f32) (x7 : Vec F S256x1 .i32) : Vec F S256x4 .f32 :=
  View.canon [⟨wholeOut, k0_pay1 (k0_pay2 (View.ld x7 wholeLen)) (k0_pay3 (View.ld x7 wholeLen) (View.ld x0 wholeIn) (View.ld x4 wholeIn))
    (k0_pay4 (View.ld x7 wholeLen) (View.ld x1 wholeIn) (View.ld x5 wholeIn)) (View.ld x6 wholeIn)
    (k0_pay5 (View.ld x7 wholeLen) (View.ld x2 wholeIn) (View.ld x6 wholeIn)) (View.ld x3 wholeIn)⟩]

/-- The one store covers the block. -/
theorem store_covers (p0 : Vec F S256x4 .f32) (y : S256x4.Idx) :
    ∃ pc ∈ ([⟨wholeOut, p0⟩] : List (View.Piece (Elt F) S256x4 .f32)), y ∈ pc.1.set :=
  View.cover_of_tiled [⟨wholeOut, p0⟩] S256x4.size (by rfl) y

set_option maxHeartbeats 1000000 in
/-- The body, run on whole staging buffers holding `x0 … x7` and an output buffer holding anything, ends with the
    inputs as they were and the output at `rowsOut` of them. -/
theorem body_runs (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S256x2048 .f32) (harg7 : arg7.IsWhole) (arg8 : Memref sig .tc .vmem S256x1 .i32) (harg8 : arg8.IsWhole)
    (arg9 : Memref sig .tc .vmem S256x4 .f32) (harg9 : arg9.IsWhole)
    (x0 x1 x2 x3 x4 x5 x6 : Vec F S256x2048 .f32) (x7 : Vec F S256x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (rowsOut x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (store_covers _)

/-! ## The launch's bookkeeping -/

/-- Per core: the arrays as the launch finds them; after the body at point `t` each input buffer at its block and the
    output buffer at `rowsOut` of the eight blocks; nothing else is held or owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => rowsOut (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_in7 (c : Dev nD) (t : Fin cfg0.N) : (dats m 0 c).after 7 t = blockAt m c 7 t := by dsimp only [dats]
theorem after_out (c : Dev nD) (t : Fin cfg0.N) : (dats m 0 c).after 8 t
    = rowsOut (blockAt m c 0 t) (blockAt m c 1 t) (blockAt m c 2 t) (blockAt m c 3 t) (blockAt m c 4 t) (blockAt m c 5 t) (blockAt m c 6 t) (blockAt m c 7 t) := by
  dsimp only [dats]

theorem found_in0 (c : Dev nD) (t : Fin cfg0.N) (d) : (dats m 0 c).before 0 t d = blockAt m c 0 t :=
  before_in0 m (dats m 0 c) (arrays_eq m c 0) (after_in0 m c) t d
theorem found_in1 (c : Dev nD) (t : Fin cfg0.N) (d) : (dats m 0 c).before 1 t d = blockAt m c 1 t :=
  before_in1 m (dats m 0 c) (arrays_eq m c 1) (after_in1 m c) t d
theorem found_in2 (c : Dev nD) (t : Fin cfg0.N) (d) : (dats m 0 c).before 2 t d = blockAt m c 2 t :=
  before_in2 m (dats m 0 c) (arrays_eq m c 2) (after_in2 m c) t d
theorem found_in3 (c : Dev nD) (t : Fin cfg0.N) (d) : (dats m 0 c).before 3 t d = blockAt m c 3 t :=
  before_in3 m (dats m 0 c) (arrays_eq m c 3) (after_in3 m c) t d
theorem found_in4 (c : Dev nD) (t : Fin cfg0.N) (d) : (dats m 0 c).before 4 t d = blockAt m c 4 t :=
  before_in4 m (dats m 0 c) (arrays_eq m c 4) (after_in4 m c) t d
theorem found_in5 (c : Dev nD) (t : Fin cfg0.N) (d) : (dats m 0 c).before 5 t d = blockAt m c 5 t :=
  before_in5 m (dats m 0 c) (arrays_eq m c 5) (after_in5 m c) t d
theorem found_in6 (c : Dev nD) (t : Fin cfg0.N) (d) : (dats m 0 c).before 6 t d = blockAt m c 6 t :=
  before_in6 m (dats m 0 c) (arrays_eq m c 6) (after_in6 m c) t d
theorem found_in7 (c : Dev nD) (t : Fin cfg0.N) (d) : (dats m 0 c).before 7 t d = blockAt m c 7 t :=
  before_in7 m (dats m 0 c) (arrays_eq m c 7) (after_in7 m c) t d

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: its input buffers hold their blocks, so `body_runs` applies. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found_in0, found_in1, found_in2, found_in3, found_in4, found_in5, found_in6, found_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of the program terminates without a fault; at the end each of the nine arrays of the
    launch holds what the blocks written back make of it, and every other unscoped buffer what the host lines after the
    launch leave in it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-- The eight argument arrays end as they began: seven are input arrays of the launch, which it only reads; the length
    vector bypasses the launch and no later host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((arrays_eq m c 0).trans (entry_arg0 m c))),
      ((h c).1 1).trans (((dats m 0 c).arrAt_in 1 rfl _).trans ((arrays_eq m c 1).trans (entry_arg1 m c))),
      ((h c).1 2).trans (((dats m 0 c).arrAt_in 2 rfl _).trans ((arrays_eq m c 2).trans (entry_arg2 m c))),
      ((h c).1 3).trans (((dats m 0 c).arrAt_in 3 rfl _).trans ((arrays_eq m c 3).trans (entry_arg3 m c))),
      ((h c).1 4).trans (((dats m 0 c).arrAt_in 4 rfl _).trans ((arrays_eq m c 4).trans (entry_arg4 m c))),
      ((h c).1 5).trans (((dats m 0 c).arrAt_in 5 rfl _).trans ((arrays_eq m c 5).trans (entry_arg5 m c))),
      ((h c).1 6).trans (((dats m 0 c).arrAt_in 6 rfl _).trans ((arrays_eq m c 6).trans (entry_arg6 m c))),
      ((h c).2 main_arg7 (Pipeline.mem_restRefs_of main_arg7 (by decide) (by decide))).trans (final_arg7 m (dats m) c)⟩) (run_main m ρ)

end Cert.Kernel.Fr

end
-- ==== Proof.KernelIdealFrame.lean ====
/-
  The run of the program around its one launch, at any reading `F` of the floats.

  The program reshapes the length vector to a column, launches one kernel over sixteen grid points, and then
  reduces the kernel's 4096 × 4 result to five numbers on the host. Point `t` of the grid is handed rows
  `256 t … 256 t + 255` of each of the seven 4096 × 2048 arrays and of the length column, and writes rows
  `256 t … 256 t + 255` of the result. The body keeps nothing between points: it loads its eight input blocks whole,
  computes one 256 × 4 value from them, and stores it over the whole output block. So after the body the output
  block is one function (`rowsOut`) of the eight input blocks, every input block is as it was, and the
  launch leaves each argument array as it found it and the result array at the blocks written back. The host
  lines after the launch write only buffers of their own, so the eight arguments also end as they began.
-/
import proofs.«100875_j51651276701971_2_alg».proof.Proof.Gen.KernelIdeal.Launch
import proofs.«100875_j51651276701971_2_alg».proof.Proof.Gen.KernelIdeal.Skeleton
import proofs.«100875_j51651276701971_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The memory the launch finds, and the host lines around it -/

/-- What core `c`'s buffers hold when the launch starts: the initial memory after the one host line before it
    (the length vector reshaped to a column). -/
abbrev entry0 (c : Dev nD) : Valuation τ sig (Elt F) := StableHlo.after (List.flatten [hostOps0]) (fun b => m (c, b))
/-- The same, read at one buffer. -/
abbrev entry (c : Dev nD) (b : Ref sig .tc) : Buf (Elt F) ((c : Thread nD τ).loc b) := entry0 m c (Proc.devRef .tc b)

/-- No host line allocates. -/
theorem before_fresh : (hostOps0 : List (HloOp τ sig (Elt F))).Forall fun op => op.fresh = ∅ := by
  simp only [List.Forall]; repeat' constructor
theorem tail_fresh0 : (hostOps1 : List (HloOp τ sig (Elt F))).Forall fun op => op.fresh = ∅ := by
  simp only [List.Forall]; repeat' constructor

/-- The program is: the host line before the launch, the launch, then the host lines after it. -/
theorem main_around (𝒱₀ : Variants) : Pipeline.HMainK (Ix := Unit) (Name := ℕ) (U := UR sig nD τ) (Lvl := ℕ) cfgs 0 defs₀ 𝒱₀ m (main (F := F)) (entry m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The lines after the launch touch only unscoped buffers: the launch's arrays and the buffers that bypass it. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp tail_fresh0) op hop
/-- Each writes one buffer of its own, which is none of the nine arrays the launch stages. -/
theorem tail_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.reshape_writes, StableHlo.nary_writes, Finset.mem_singleton] <;> exact StableHlo.devRef_ne_of_ne (by decide)

/-- The reshape before the launch writes only the length column: argument 0 is found as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 1 is found as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 2 is found as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 3 is found as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 4 is found as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 5 is found as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 6 is found as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))
/-- The reshape before the launch writes only the length column: argument 7 is found as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.reshape_writes, StableHlo.nary_writes, Finset.mem_singleton]
    exact StableHlo.devRef_ne_of_ne (by decide)))

/-- Argument 7, the length vector, is no array of the launch (its reshaped column is), and no host line after the
    launch writes it: it ends as launched. -/
theorem final_arg7 (dats : (p : Fin _) → (c : Dev nD) → Dat τ (Elt F) Unit ℕ (UR sig nD τ) ℕ (cfgs p) c) (c : Dev nD) :
    Pipeline.afterTail₀ cfgs dats 0 (entry0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.reshape_writes, StableHlo.nary_writes, Finset.mem_singleton]
      repeat' apply And.intro
      all_goals exact StableHlo.devRef_ne_of_ne (by decide))),
    Pipeline.withArrays_of_ne _ c (entry0 m c) _ main_arg7 (by exact (by decide : ∀ w, Pipeline.arrRef spec0 w ≠ main_arg7))]
  exact entry_arg7 m c

/-! ## The blocks -/

/-- Window `w`'s block at grid point `t`: rows `256 t … 256 t + 255` of its array as the launch finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-- Input window 0's staging buffer holds its block when the body starts at a point, whenever the body leaves
    input blocks in place. -/
theorem before_in0 {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- Input window 1's staging buffer holds its block when the body starts at a point, whenever the body leaves
    input blocks in place. -/
theorem before_in1 {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Input window 2's staging buffer holds its block when the body starts at a point, whenever the body leaves
    input blocks in place. -/
theorem before_in2 {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
/-- Input window 3's staging buffer holds its block when the body starts at a point, whenever the body leaves
    input blocks in place. -/
theorem before_in3 {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
/-- Input window 4's staging buffer holds its block when the body starts at a point, whenever the body leaves
    input blocks in place. -/
theorem before_in4 {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
/-- Input window 5's staging buffer holds its block when the body starts at a point, whenever the body leaves
    input blocks in place. -/
theorem before_in5 {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
/-- Input window 6's staging buffer holds its block when the body starts at a point, whenever the body leaves
    input blocks in place. -/
theorem before_in6 {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
/-- Input window 7's staging buffer holds its block when the body starts at a point, whenever the body leaves
    input blocks in place. -/
theorem before_in7 {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## What the body writes -/

/-- The rectangle every load takes: a whole 256 × 2048 block, -/
abbrev wholeIn : Rect S256x2048 := Rect.unit (s := S256x2048) ![0, 0] S256x2048.size inb_S256x2048_S256x2048_0_0
/-- the whole 256 × 1 block of lengths, -/
abbrev wholeLen : Rect S256x1 := Rect.unit (s := S256x1) ![0, 0] S256x1.size inb_S256x1_S256x1_0_0
/-- and the whole 256 × 4 output block, which the one store covers. -/
abbrev wholeOut : Rect S256x4 := Rect.unit (s := S256x4) ![0, 0] S256x4.size inb_S256x4_S256x4_0_0

/-- The output block after the body, as a function of the eight input blocks: the four per-row losses of the
    256 rows, side by side (the body's one store, over its whole block). -/
def rowsOut (x0 x1 x2 x3 x4 x5 x6 : Vec F S256x2048 .f32) (x7 : Vec F S256x1 .i32) : Vec F S256x4 .f32 :=
  View.canon [⟨wholeOut, k0_pay1 (k0_pay2 (View.ld x7 wholeLen)) (k0_pay3 (View.ld x7 wholeLen) (View.ld x0 wholeIn) (View.ld x4 wholeIn))
    (k0_pay4 (View.ld x7 wholeLen) (View.ld x1 wholeIn) (View.ld x5 wholeIn)) (View.ld x6 wholeIn)
    (k0_pay5 (View.ld x7 wholeLen) (View.ld x2 wholeIn) (View.ld x6 wholeIn)) (View.ld x3 wholeIn)⟩]

/-- The one store covers the block. -/
theorem store_covers (p0 : Vec F S256x4 .f32) (y : S256x4.Idx) :
    ∃ pc ∈ ([⟨wholeOut, p0⟩] : List (View.Piece (Elt F) S256x4 .f32)), y ∈ pc.1.set :=
  View.cover_of_tiled [⟨wholeOut, p0⟩] S256x4.size (by rfl) y

set_option maxHeartbeats 1000000 in
/-- The body, run on whole staging buffers holding `x0 … x7` and an output buffer holding anything, ends with the
    inputs as they were and the output at `rowsOut` of them. -/
theorem body_runs (c : Dev nD) (E : Set ℕ) (i : grid0.Coords)
    (arg1 : Memref sig .tc .vmem S256x2048 .f32) (harg1 : arg1.IsWhole) (arg2 : Memref sig .tc .vmem S256x2048 .f32) (harg2 : arg2.IsWhole)
    (arg3 : Memref sig .tc .vmem S256x2048 .f32) (harg3 : arg3.IsWhole) (arg4 : Memref sig .tc .vmem S256x2048 .f32) (harg4 : arg4.IsWhole)
    (arg5 : Memref sig .tc .vmem S256x2048 .f32) (harg5 : arg5.IsWhole) (arg6 : Memref sig .tc .vmem S256x2048 .f32) (harg6 : arg6.IsWhole)
    (arg7 : Memref sig .tc .vmem S256x2048 .f32) (harg7 : arg7.IsWhole) (arg8 : Memref sig .tc .vmem S256x1 .i32) (harg8 : arg8.IsWhole)
    (arg9 : Memref sig .tc .vmem S256x4 .f32) (harg9 : arg9.IsWhole)
    (x0 x1 x2 x3 x4 x5 x6 : Vec F S256x2048 .f32) (x7 : Vec F S256x1 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (rowsOut x0 x1 x2 x3 x4 x5 x6 x7)) -∗ K ⟨⟩))
      ⊢ wp frame (wpE (defs₀ (F := F)) Variants.none c none) E
          (cc0__kernel i arg1 harg1 arg2 harg2 arg3 harg3 arg4 harg4 arg5 harg5 arg6 harg6 arg7 harg7 arg8 harg8 arg9 harg9) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  try dsimp only
  exact View.read_writes_eq_canon _ _ _ (store_covers _)

/-! ## The launch's bookkeeping -/

/-- Per core: the arrays as the launch finds them; after the body at point `t` each input buffer at its block and the
    output buffer at `rowsOut` of the eight blocks; nothing else is held or owed. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => rowsOut (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem arrays_eq (c : Dev nD) (w : Fin cfg0.W) : (dats m 0 c).A w = entry m c (Pipeline.arrRef spec0 w) := by
  dsimp only [dats]

theorem after_in0 (c : Dev nD) (t : Fin cfg0.N) : (dats m 0 c).after 0 t = blockAt m c 0 t := by dsimp only [dats]
theorem after_in1 (c : Dev nD) (t : Fin cfg0.N) : (dats m 0 c).after 1 t = blockAt m c 1 t := by dsimp only [dats]
theorem after_in2 (c : Dev nD) (t : Fin cfg0.N) : (dats m 0 c).after 2 t = blockAt m c 2 t := by dsimp only [dats]
theorem after_in3 (c : Dev nD) (t : Fin cfg0.N) : (dats m 0 c).after 3 t = blockAt m c 3 t := by dsimp only [dats]
theorem after_in4 (c : Dev nD) (t : Fin cfg0.N) : (dats m 0 c).after 4 t = blockAt m c 4 t := by dsimp only [dats]
theorem after_in5 (c : Dev nD) (t : Fin cfg0.N) : (dats m 0 c).after 5 t = blockAt m c 5 t := by dsimp only [dats]
theorem after_in6 (c : Dev nD) (t : Fin cfg0.N) : (dats m 0 c).after 6 t = blockAt m c 6 t := by dsimp only [dats]
theorem after_in7 (c : Dev nD) (t : Fin cfg0.N) : (dats m 0 c).after 7 t = blockAt m c 7 t := by dsimp only [dats]
theorem after_out (c : Dev nD) (t : Fin cfg0.N) : (dats m 0 c).after 8 t
    = rowsOut (blockAt m c 0 t) (blockAt m c 1 t) (blockAt m c 2 t) (blockAt m c 3 t) (blockAt m c 4 t) (blockAt m c 5 t) (blockAt m c 6 t) (blockAt m c 7 t) := by
  dsimp only [dats]

theorem found_in0 (c : Dev nD) (t : Fin cfg0.N) (d) : (dats m 0 c).before 0 t d = blockAt m c 0 t :=
  before_in0 m (dats m 0 c) (arrays_eq m c 0) (after_in0 m c) t d
theorem found_in1 (c : Dev nD) (t : Fin cfg0.N) (d) : (dats m 0 c).before 1 t d = blockAt m c 1 t :=
  before_in1 m (dats m 0 c) (arrays_eq m c 1) (after_in1 m c) t d
theorem found_in2 (c : Dev nD) (t : Fin cfg0.N) (d) : (dats m 0 c).before 2 t d = blockAt m c 2 t :=
  before_in2 m (dats m 0 c) (arrays_eq m c 2) (after_in2 m c) t d
theorem found_in3 (c : Dev nD) (t : Fin cfg0.N) (d) : (dats m 0 c).before 3 t d = blockAt m c 3 t :=
  before_in3 m (dats m 0 c) (arrays_eq m c 3) (after_in3 m c) t d
theorem found_in4 (c : Dev nD) (t : Fin cfg0.N) (d) : (dats m 0 c).before 4 t d = blockAt m c 4 t :=
  before_in4 m (dats m 0 c) (arrays_eq m c 4) (after_in4 m c) t d
theorem found_in5 (c : Dev nD) (t : Fin cfg0.N) (d) : (dats m 0 c).before 5 t d = blockAt m c 5 t :=
  before_in5 m (dats m 0 c) (arrays_eq m c 5) (after_in5 m c) t d
theorem found_in6 (c : Dev nD) (t : Fin cfg0.N) (d) : (dats m 0 c).before 6 t d = blockAt m c 6 t :=
  before_in6 m (dats m 0 c) (arrays_eq m c 6) (after_in6 m c) t d
theorem found_in7 (c : Dev nD) (t : Fin cfg0.N) (d) : (dats m 0 c).before 7 t d = blockAt m c 7 t :=
  before_in7 m (dats m 0 c) (arrays_eq m c 7) (after_in7 m c) t d

/-- What the body is called with at point `t`, -/
def pointPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def pointPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body at any point: its input buffers hold their blocks, so `body_runs` applies. -/
theorem point_runs (c : Dev nD) (t : Fin cfg0.N) :
    pointPre m c t ⊢ wp frame (wpE (defs₀ (F := F)) Variants.none c none) Set.univ (bodyAt0 t) (fun _ => pointPost m c t) := by
  unfold pointPre pointPost bodyAt0
  simp only [found_in0, found_in1, found_in2, found_in3, found_in4, found_in5, found_in6, found_in7]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_in6, after_in7, after_out]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (body_runs c Set.univ (grid0.coords t) _ _ _ _ _ _ _ _ _ _ _ _ _ _ _ _ _ _
    (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem body_obligation (c : Dev nD) : BodyObligation (dats (F := F) m 0 c) (defs₀ (F := F)) Variants.none () Set.univ := fun t => by
  rw [bigSep_W0, bigSep_W0]
  exact point_runs m c t

/-! ## The run -/

set_option backward.isDefEq.respectTransparency.types false in
/-- Every weakly fair execution of the program terminates without a fault; at the end each of the nine arrays of the
    launch holds what the blocks written back make of it, and every other unscoped buffer what the host lines after the
    launch leave in it. -/
theorem run_main : θ_run defs (onTc (τ := τ) (main (F := F))) (s₀ m ρ) (Pipeline.FramePost cfgs (dats m) 0 (Pipeline.afterTail₀ cfgs (dats m) 0 (entry0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := entry0 m) (opss := [hostOps1]) (hsub := tail_sub) (hfresh := tail_fresh) (hkeep := tail_keeps)
    (hmain := main_around m Variants.none) (hA := arrays_eq m) (hΦ := fun _ _ => rfl)

/-- The eight argument arrays end as they began: seven are input arrays of the launch, which it only reads; the length
    vector bypasses the launch and no later host line writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats m 0 c).arrAt_in 0 rfl _).trans ((arrays_eq m c 0).trans (entry_arg0 m c))),
      ((h c).1 1).trans (((dats m 0 c).arrAt_in 1 rfl _).trans ((arrays_eq m c 1).trans (entry_arg1 m c))),
      ((h c).1 2).trans (((dats m 0 c).arrAt_in 2 rfl _).trans ((arrays_eq m c 2).trans (entry_arg2 m c))),
      ((h c).1 3).trans (((dats m 0 c).arrAt_in 3 rfl _).trans ((arrays_eq m c 3).trans (entry_arg3 m c))),
      ((h c).1 4).trans (((dats m 0 c).arrAt_in 4 rfl _).trans ((arrays_eq m c 4).trans (entry_arg4 m c))),
      ((h c).1 5).trans (((dats m 0 c).arrAt_in 5 rfl _).trans ((arrays_eq m c 5).trans (entry_arg5 m c))),
      ((h c).1 6).trans (((dats m 0 c).arrAt_in 6 rfl _).trans ((arrays_eq m c 6).trans (entry_arg6 m c))),
      ((h c).2 main_arg7 (Pipeline.mem_restRefs_of main_arg7 (by decide) (by decide))).trans (final_arg7 m (dats m) c)⟩) (run_main m ρ)

end Cert.KernelIdeal.Fr

end
-- ==== Proof.Losses.lean ====
/-
  The four per-row losses, as functions of one row of each array and of that row's length, on the extended reals.

  A row has 2048 positions; position `k` counts towards a masked loss when `k` is below the row's length (both read as
  signed 32-bit integers). A summand that does not count contributes `0`. There are two ways to say "contributes `0`":
  choose between the summand and `0` by the comparison's bit, or multiply the summand by the bit read as the number
  `0` or `1`. On the extended reals these agree for EVERY summand, finite or not, because `x * 1 = x` and `x * 0 = 0`
  hold there without exception (`mul_bit`). That is the one law that joins the two programs.

  * `klLoss p g len`   = `-(∑ₖ [k < len] g k · log (p k / g k))`
  * `attnLoss p g`     = `(∑ₖ (-g k) · log (p k + ε)) / ((∑ₖ g k) + ε)`               (not masked)
  * `midLoss p g len`  = `(0.7 · ∑ₖ [k < len] (-g k) · log (p k)) / ((∑ₖ [k < len] g k) + ε)`
  with `ε` and `0.7` the f32 numbers both programs print (the same words on both sides, so never evaluated).
-/
import Idealize.ShloMosaic.PureOps.Ideal
import Idealize.ShloMosaic.PureOps.Ideal.Laws

noncomputable section

namespace Cert.Losses

open Idealize.ShloMosaic

/-- A summand that counts only where the comparison's bit is set. -/
def gated (b : BitVec 1) (x : EReal) : EReal := Scalar.select b x 0

theorem gated_one (x : EReal) : gated 1#1 x = x := by unfold gated Scalar.select; exact if_pos rfl
theorem gated_zero (x : EReal) : gated 0#1 x = 0 := by unfold gated Scalar.select; exact if_neg (by decide)

/-- Multiplying by the bit read as a number is choosing by the bit: `x * 1 = x`, `x * 0 = 0`, for every extended real. -/
theorem mul_bit (b : BitVec 1) (x : EReal) : x * (((b.toNat : ℝ)) : EReal) = gated b x := by
  rcases (by decide : ∀ b : BitVec 1, b = 0#1 ∨ b = 1#1) b with rfl | rfl
  · rw [gated_zero]; simp
  · rw [gated_one]; simp

/-- Position `k` lies inside a row of length `len` (signed comparison of 32-bit integers). -/
def inside (len : BitVec 32) (k : Fin 2048) : BitVec 1 := IntOp.cmpi .slt (BitVec.ofNat 32 k.val) len

/-- The small constant both programs add to a denominator and inside one logarithm. -/
abbrev eps : EReal := Ideal.ofBits .f32 0x322BCC77#32
/-- The scale of the masked ratio loss. -/
abbrev scale : EReal := Ideal.ofBits .f32 0x3F333333#32

/-- The masked divergence of a row of predictions `p` from a row of targets `g`. -/
def klLoss (p g : Fin 2048 → EReal) (len : BitVec 32) : EReal :=
  -(∑ k : Fin 2048, gated (inside len k) (g k * Ideal.log (Ideal.div (p k) (g k))))

/-- The unmasked ratio loss of the attention weights `p` against the localisation row `g`. -/
def attnLoss (p g : Fin 2048 → EReal) : EReal :=
  Ideal.div (∑ k : Fin 2048, (-(g k)) * Ideal.log (p k + eps)) ((∑ k : Fin 2048, g k) + eps)

/-- The masked, scaled ratio loss of `p` against the localisation row `g`. -/
def midLoss (p g : Fin 2048 → EReal) (len : BitVec 32) : EReal :=
  Ideal.div (scale * ∑ k : Fin 2048, gated (inside len k) ((-(g k)) * Ideal.log (p k)))
    ((∑ k : Fin 2048, gated (inside len k) (g k)) + eps)

/-- Entry `q` of a row's four losses: the masked divergences of the start and of the end predictions, the attention
    loss, the masked ratio loss of the middle predictions — from the row of each of the seven arrays and the row's length. -/
def rowLoss (q : Fin 4) (ps pe pm pa gs ge gl : Fin 2048 → EReal) (len : BitVec 32) : EReal :=
  match q with
  | ⟨0, _⟩ => klLoss ps gs len
  | ⟨1, _⟩ => klLoss pe ge len
  | ⟨2, _⟩ => attnLoss pa gl
  | ⟨3, _⟩ => midLoss pm gl len

/-- Negation spelt as a difference from zero. -/
theorem zero_sub' (x : EReal) : (0 : EReal) - x = -x := by rw [sub_eq_add_neg, zero_add]

end Cert.Losses

end
-- ==== Proof.BlockRows.lean ====
/-
  What the kernel's body stores, read entry by entry.

  The body's one store holds a 256 × 4 value computed from the eight loaded blocks. Its entry `(p, q)` depends only on
  row `p` of the blocks: the comparison of the lane number with row `p`'s length gives the mask bit of each of the
  2048 positions, each masked loss is a sum over the row of summands chosen by that bit, and the four columns are, in
  order, the masked divergence of the start predictions, that of the end predictions, the unmasked attention loss,
  and the masked scaled ratio loss. Each lemma below reads one piece of that value at `(p, q)` as the function
  of the row that `Losses` names.
-/
import proofs.«100875_j51651276701971_2_alg».proof.Proof.Gen.KernelIdeal.Skeleton
import proofs.«100875_j51651276701971_2_alg».proof.Proof.Losses
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Rows

open Idealize.ShloMosaic Idealize.ShloMosaic.ValueIdx Cert.KernelIdeal Cert.KernelIdeal.Gen Cert.Losses

section Layout
variable {α : Type}

/-- A vector of length `a` written as a column `[a, 1]` reads, at `(p, u)`, the vector at `p`. -/
theorem column_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` repeated along its rows to `[a, b]` reads, at `(p, k)`, the column's entry of row `p`. -/
theorem spread_apply {a b : ℕ} (v : (⟨2, ![a, 1]⟩ : Shape).Idx → α) (h : (⟨2, ![a, 1]⟩ : Shape).Broadcasts ⟨2, ![a, b]⟩)
    (p : Fin a) (k : Fin b) : broadcastTo ⟨2, ![a, b]⟩ v h (ix2 p k) = v (ix2 p (0 : Fin 1)) := by
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

/-- Four columns set side by side read, at `(p, q)`, column `q` at row `p`. -/
theorem cols_apply0 (c0 c1 c2 c3 : S256x1.Idx → α) (h : Shape.Concatenates [S256x1, S256x1, S256x1, S256x1] S256x4 1) (p : Fin 256) :
    concatenate S256x4 1 [⟨S256x1, c0⟩, ⟨S256x1, c1⟩, ⟨S256x1, c2⟩, ⟨S256x1, c3⟩] h (ix2 p (0 : Fin 4)) = c0 (ix2 p (0 : Fin 1)) :=
  concatenate_apply_piece (t := S256x4) 1 [⟨S256x1, c0⟩, ⟨S256x1, c1⟩, ⟨S256x1, c2⟩, ⟨S256x1, c3⟩] h (ix2 p (0 : Fin 4)) 0 (by show 0 < 4; omega) S256x1 c0 rfl rfl 0 rfl (ix2 p (0 : Fin 1))
    (fun b hb => by
      match b with
      | ⟨0, _⟩ => rfl
      | ⟨1, _⟩ => exact (hb (Fin.ext rfl)).elim) rfl
theorem cols_apply1 (c0 c1 c2 c3 : S256x1.Idx → α) (h : Shape.Concatenates [S256x1, S256x1, S256x1, S256x1] S256x4 1) (p : Fin 256) :
    concatenate S256x4 1 [⟨S256x1, c0⟩, ⟨S256x1, c1⟩, ⟨S256x1, c2⟩, ⟨S256x1, c3⟩] h (ix2 p (1 : Fin 4)) = c1 (ix2 p (0 : Fin 1)) :=
  concatenate_apply_piece (t := S256x4) 1 [⟨S256x1, c0⟩, ⟨S256x1, c1⟩, ⟨S256x1, c2⟩, ⟨S256x1, c3⟩] h (ix2 p (1 : Fin 4)) 1 (by show 1 < 4; omega) S256x1 c1 rfl rfl 1 rfl (ix2 p (0 : Fin 1))
    (fun b hb => by
      match b with
      | ⟨0, _⟩ => rfl
      | ⟨1, _⟩ => exact (hb (Fin.ext rfl)).elim) rfl
theorem cols_apply2 (c0 c1 c2 c3 : S256x1.Idx → α) (h : Shape.Concatenates [S256x1, S256x1, S256x1, S256x1] S256x4 1) (p : Fin 256) :
    concatenate S256x4 1 [⟨S256x1, c0⟩, ⟨S256x1, c1⟩, ⟨S256x1, c2⟩, ⟨S256x1, c3⟩] h (ix2 p (2 : Fin 4)) = c2 (ix2 p (0 : Fin 1)) :=
  concatenate_apply_piece (t := S256x4) 1 [⟨S256x1, c0⟩, ⟨S256x1, c1⟩, ⟨S256x1, c2⟩, ⟨S256x1, c3⟩] h (ix2 p (2 : Fin 4)) 2 (by show 2 < 4; omega) S256x1 c2 rfl rfl 2 rfl (ix2 p (0 : Fin 1))
    (fun b hb => by
      match b with
      | ⟨0, _⟩ => rfl
      | ⟨1, _⟩ => exact (hb (Fin.ext rfl)).elim) rfl
theorem cols_apply3 (c0 c1 c2 c3 : S256x1.Idx → α) (h : Shape.Concatenates [S256x1, S256x1, S256x1, S256x1] S256x4 1) (p : Fin 256) :
    concatenate S256x4 1 [⟨S256x1, c0⟩, ⟨S256x1, c1⟩, ⟨S256x1, c2⟩, ⟨S256x1, c3⟩] h (ix2 p (3 : Fin 4)) = c3 (ix2 p (0 : Fin 1)) :=
  concatenate_apply_piece (t := S256x4) 1 [⟨S256x1, c0⟩, ⟨S256x1, c1⟩, ⟨S256x1, c2⟩, ⟨S256x1, c3⟩] h (ix2 p (3 : Fin 4)) 3 (by show 3 < 4; omega) S256x1 c3 rfl rfl 3 rfl (ix2 p (0 : Fin 1))
    (fun b hb => by
      match b with
      | ⟨0, _⟩ => rfl
      | ⟨1, _⟩ => exact (hb (Fin.ext rfl)).elim) rfl

end Layout

/-- The logarithm of a vector, entry by entry. -/
theorem log_apply {s : Shape} {φ : FTy} (a : FVec Ideal s φ) (i : s.Idx) : log a i = Ideal.log (a i) := rfl

/-- The f32 zero word is the number zero. -/
theorem zero_word : (Scalar.ofBits (F := Ideal) .f32 0x00000000#32 : EReal) = 0 := Ideal.ofBits_zero_f32

/-- THE MASK BIT of position `k` in row `p`: lane number `k` against the row's length. -/
theorem mask_apply (v1 : Vec Ideal S256x1 .i32) (p : Fin 256) (k : Fin 2048) :
    k0_pay2 (F := Ideal) v1 (ix2 p k) = inside (v1 (ix2 p (0 : Fin 1))) k := by
  unfold k0_pay2 inside
  show IntOp.cmpi .slt (iota .tc S256x2048 32 [1] iota_S256x2048_d1_w32 (ix2 p k))
      (broadcastTo S256x2048 (shapeCast S256x1 v1 shapeCasts_S256x1_S256x1) broadcasts_S256x1_S256x2048 (ix2 p k)) = _
  rw [iota_single_apply, shapeCast_self, spread_apply]

/-- A sum along the lanes of a 256 × 2048 block, read at row `p`: the sum of the row's 2048 entries. -/
theorem rowSum_apply (v : FVec Ideal S256x2048 .f32) (h : S256x2048.Reduces [1] S256) (hφ : FKind.Formats .f32)
    (hacc : (0x00000000#32 : BitVec 32) = FKind.add.neutral .f32 hφ) (p : Fin 256) :
    multiReduction .add [1] S256 v 0x00000000#32 h hφ hacc (ix1 p) = ∑ k : Fin 2048, v (ix2 p k) := by
  refine (Ideal.multiReduction_add_single v 0x00000000#32 h hφ hacc (ix1 p)).trans ?_
  exact Finset.sum_congr rfl fun k _ => congrArg v (funext fun a => Fin.ext (by match a with | ⟨0, _⟩ => rfl | ⟨1, _⟩ => rfl))

/-- The first two columns: the masked divergence of row `p`. -/
theorem kl_apply (v1 : Vec Ideal S256x1 .i32) (v5 v6 : Vec Ideal S256x2048 .f32) (p : Fin 256) (u : Fin 1) :
    k0_pay3 (F := Ideal) v1 v5 v6 (ix2 p u) = klLoss (fun k => v5 (ix2 p k)) (fun k => v6 (ix2 p k)) (v1 (ix2 p (0 : Fin 1))) := by
  unfold k0_pay3 klLoss
  simp only [subf_apply, broadcast_apply, column_apply, zero_word, Losses.zero_sub']
  refine congrArg Neg.neg ((rowSum_apply _ _ _ _ p).trans (Finset.sum_congr rfl fun k _ => ?_))
  simp only [select_apply, mulf_apply, divf_apply, log_apply, mask_apply, broadcast_apply, zero_word]
  rfl

theorem kl_apply' (v1 : Vec Ideal S256x1 .i32) (v16 v17 : Vec Ideal S256x2048 .f32) (p : Fin 256) (u : Fin 1) :
    k0_pay4 (F := Ideal) v1 v16 v17 (ix2 p u) = klLoss (fun k => v16 (ix2 p k)) (fun k => v17 (ix2 p k)) (v1 (ix2 p (0 : Fin 1))) := by
  unfold k0_pay4 klLoss
  simp only [subf_apply, broadcast_apply, column_apply, zero_word, Losses.zero_sub']
  refine congrArg Neg.neg ((rowSum_apply _ _ _ _ p).trans (Finset.sum_congr rfl fun k _ => ?_))
  simp only [select_apply, mulf_apply, divf_apply, log_apply, mask_apply, broadcast_apply, zero_word]
  rfl

/-- The numerator of the masked ratio loss, before scaling. -/
theorem midNum_apply (v1 : Vec Ideal S256x1 .i32) (v27 v28 : Vec Ideal S256x2048 .f32) (p : Fin 256) :
    k0_pay5 (F := Ideal) v1 v27 v28 (ix1 p) = ∑ k : Fin 2048, gated (inside (v1 (ix2 p (0 : Fin 1))) k) ((-(v28 (ix2 p k))) * Ideal.log (v27 (ix2 p k))) := by
  unfold k0_pay5
  refine (rowSum_apply _ _ _ _ p).trans (Finset.sum_congr rfl fun k _ => ?_)
  simp only [select_apply, mulf_apply, subf_apply, log_apply, mask_apply, broadcast_apply, zero_word, Losses.zero_sub']
  rfl

/-! ## The stored value, column by column -/

theorem stored0 (v4 : IVec S256x2048 1) (v15 v26 : FVec Ideal S256x1 .f32) (v28 : Vec Ideal S256x2048 .f32) (v35 : FVec Ideal S256 .f32)
    (v46 : Vec Ideal S256x2048 .f32) (p : Fin 256) :
    k0_pay1 (F := Ideal) v4 v15 v26 v28 v35 v46 (ix2 p (0 : Fin 4)) = v15 (ix2 p (0 : Fin 1)) := by
  unfold k0_pay1
  exact cols_apply0 _ _ _ _ _ p

theorem stored1 (v4 : IVec S256x2048 1) (v15 v26 : FVec Ideal S256x1 .f32) (v28 : Vec Ideal S256x2048 .f32) (v35 : FVec Ideal S256 .f32)
    (v46 : Vec Ideal S256x2048 .f32) (p : Fin 256) :
    k0_pay1 (F := Ideal) v4 v15 v26 v28 v35 v46 (ix2 p (1 : Fin 4)) = v26 (ix2 p (0 : Fin 1)) := by
  unfold k0_pay1
  exact cols_apply1 _ _ _ _ _ p

/-- Column 2: the attention loss of row `p`, which no mask touches. -/
theorem stored2 (v4 : IVec S256x2048 1) (v15 v26 : FVec Ideal S256x1 .f32) (v28 : Vec Ideal S256x2048 .f32) (v35 : FVec Ideal S256 .f32)
    (v46 : Vec Ideal S256x2048 .f32) (p : Fin 256) :
    k0_pay1 (F := Ideal) v4 v15 v26 v28 v35 v46 (ix2 p (2 : Fin 4)) = attnLoss (fun k => v46 (ix2 p k)) (fun k => v28 (ix2 p k)) := by
  unfold k0_pay1 attnLoss
  refine (cols_apply2 _ _ _ _ _ p).trans ?_
  simp only [divf_apply, addf_apply, column_apply, broadcast_apply]
  refine congrArg₂ Ideal.div ((rowSum_apply _ _ _ _ p).trans (Finset.sum_congr rfl fun k _ => ?_)) (congrArg (· + _) (rowSum_apply _ _ _ _ p))
  simp only [mulf_apply, subf_apply, log_apply, addf_apply, broadcast_apply, zero_word, Losses.zero_sub']
  rfl

/-- Column 3: the scaled ratio of the masked numerator `v35` to the masked sum of the localisation row plus `ε`. -/
theorem stored3 (v4 : IVec S256x2048 1) (v15 v26 : FVec Ideal S256x1 .f32) (v28 : Vec Ideal S256x2048 .f32) (v35 : FVec Ideal S256 .f32)
    (v46 : Vec Ideal S256x2048 .f32) (p : Fin 256) :
    k0_pay1 (F := Ideal) v4 v15 v26 v28 v35 v46 (ix2 p (3 : Fin 4))
      = Ideal.div (scale * v35 (ix1 p)) ((∑ k : Fin 2048, gated (v4 (ix2 p k)) (v28 (ix2 p k))) + eps) := by
  unfold k0_pay1
  refine (cols_apply3 _ _ _ _ _ p).trans ?_
  simp only [divf_apply, mulf_apply, addf_apply, column_apply, broadcast_apply]
  refine congrArg₂ Ideal.div rfl (congrArg (· + _) ((rowSum_apply _ _ _ _ p).trans (Finset.sum_congr rfl fun k _ => ?_)))
  simp only [select_apply, broadcast_apply, zero_word]
  rfl

/-- THE STORED VALUE at `(p, q)`: loss `q` of row `p` of the eight loaded blocks. -/
theorem stored_apply (x0 x1 x2 x3 x4 x5 x6 : Vec Ideal S256x2048 .f32) (x7 : Vec Ideal S256x1 .i32) (p : Fin 256) (q : Fin 4) :
    k0_pay1 (F := Ideal) (k0_pay2 x7) (k0_pay3 x7 x0 x4) (k0_pay4 x7 x1 x5) x6 (k0_pay5 x7 x2 x6) x3 (ix2 p q)
      = rowLoss q (fun k => x0 (ix2 p k)) (fun k => x1 (ix2 p k)) (fun k => x2 (ix2 p k)) (fun k => x3 (ix2 p k))
          (fun k => x4 (ix2 p k)) (fun k => x5 (ix2 p k)) (fun k => x6 (ix2 p k)) (x7 (ix2 p (0 : Fin 1))) := by
  match q with
  | ⟨0, _⟩ => exact (stored0 _ _ _ _ _ _ p).trans (kl_apply x7 x0 x4 p 0)
  | ⟨1, _⟩ => exact (stored1 _ _ _ _ _ _ p).trans (kl_apply' x7 x1 x5 p 0)
  | ⟨2, _⟩ => exact stored2 _ _ _ _ _ _ p
  | ⟨3, _⟩ =>
    refine (stored3 _ _ _ _ _ _ p).trans ?_
    rw [midNum_apply]
    simp only [mask_apply]
    rfl

end Cert.KernelIdeal.Rows

end
-- ==== Proof.WholeArray.lean ====
/-
  The result array of the launch, as one function of the arrays the launch finds.

  Grid point `t` works on rows `256 t … 256 t + 255`: every window's index map sends `t` to block `(t, 0)`, so row
  `p` of a block at point `t` is row `256 t + p` of its array, for the seven 4096 × 2048 inputs, for the length
  column and for the 4096 × 4 result alike. The body's stored entry `(p, q)` is loss `q` of row `p` of its blocks;
  hence what point `t` writes back is block `t` of the array whose entry `(r, q)` is loss `q` of row `r` of the
  whole arrays. Every row `r` lies in the block of point `r / 256`, so the sixteen blocks cover the result and after
  the launch it IS that array of losses.
-/
import proofs.«100875_j51651276701971_2_alg».proof.Proof.KernelIdealFrame
import proofs.«100875_j51651276701971_2_alg».proof.Proof.BlockRows
import Idealize.ShloMosaic.Lib.Pipeline.Value

set_option maxRecDepth 16384

noncomputable section

namespace Cert.KernelIdeal.Whole

open Idealize.ShloMosaic Idealize.ShloMosaic.TcCoe Idealize.ShloMosaic.ValueIdx Idealize.SL.Sem
open Idealize.ShloMosaic.Pipeline (Dat)
open Cert.KernelIdeal Cert.KernelIdeal.Gen Cert.Losses

/-- The 4096 × 4 array of losses: entry `(r, q)` is loss `q` of row `r` of the seven arrays, with the row's length
    read from the length column. -/
def lossArray (a0 a1 a2 a3 a4 a5 a6 : S4096x2048.Idx → EReal) (len : S4096x1.Idx → BitVec 32) : S4096x4.Idx → EReal :=
  fun i => rowLoss (i 1) (fun k => a0 (ix2 (i 0) k)) (fun k => a1 (ix2 (i 0) k)) (fun k => a2 (ix2 (i 0) k)) (fun k => a3 (ix2 (i 0) k))
    (fun k => a4 (ix2 (i 0) k)) (fun k => a5 (ix2 (i 0) k)) (fun k => a6 (ix2 (i 0) k)) (len (ix2 (i 0) (0 : Fin 1)))

variable (m : (ℓ : Loc nD τ sig) → Buf (Elt Ideal) ℓ) (ρ : Dev nD → PrngReg)

/-- That array, of the arrays as the launch finds them on core `c`. -/
def found (c : Dev nD) : S4096x4.Idx → EReal :=
  lossArray (Fr.entry m c main_arg0) (Fr.entry m c main_arg1) (Fr.entry m c main_arg2) (Fr.entry m c main_arg3)
    (Fr.entry m c main_arg4) (Fr.entry m c main_arg5) (Fr.entry m c main_arg6) (Fr.entry m c main_v0)

/-- Every window's block at grid point `t` is block `(t, 0)` of its array. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row `p` of a block at point `t` is row `256 t + p` of the array. -/
def rowOf (t : Fin cfg0.N) (p : Fin 256) : Fin 4096 :=
  ⟨t.val * 256 + p.val, by have := t.isLt; have h : cfg0.N = 16 := N_0; omega⟩

theorem read_in0 (c : Dev nD) (t : Fin cfg0.N) (p : Fin 256) (k : Fin 2048) :
    Fr.blockAt m c 0 t (ix2 p k) = Fr.entry m c main_arg0 (ix2 (rowOf t p) k) := by
  show Fr.entry m c main_arg0 (((cfg0.win 0).blk t).view.emb (ix2 p k)) = Fr.entry m c main_arg0 (ix2 (rowOf t p) k)
  obtain ⟨e00, e01, e10, e11, e20, e21, e30, e31, e40, e41, e50, e51, e60, e61, e70, e71, e80, e81⟩ := index_facts t
  refine congrArg (Fr.entry m c main_arg0) (funext fun a => Fin.ext ?_)
  match a with
  | ⟨0, _⟩ => show win0_0.index t (0 : Fin 2) * 256 + 1 * p.val = t.val * 256 + p.val; omega
  | ⟨1, _⟩ => show win0_0.index t (1 : Fin 2) * 2048 + 1 * k.val = k.val; omega
theorem read_in1 (c : Dev nD) (t : Fin cfg0.N) (p : Fin 256) (k : Fin 2048) :
    Fr.blockAt m c 1 t (ix2 p k) = Fr.entry m c main_arg1 (ix2 (rowOf t p) k) := by
  show Fr.entry m c main_arg1 (((cfg0.win 1).blk t).view.emb (ix2 p k)) = Fr.entry m c main_arg1 (ix2 (rowOf t p) k)
  obtain ⟨e00, e01, e10, e11, e20, e21, e30, e31, e40, e41, e50, e51, e60, e61, e70, e71, e80, e81⟩ := index_facts t
  refine congrArg (Fr.entry m c main_arg1) (funext fun a => Fin.ext ?_)
  match a with
  | ⟨0, _⟩ => show win0_1.index t (0 : Fin 2) * 256 + 1 * p.val = t.val * 256 + p.val; omega
  | ⟨1, _⟩ => show win0_1.index t (1 : Fin 2) * 2048 + 1 * k.val = k.val; omega
theorem read_in2 (c : Dev nD) (t : Fin cfg0.N) (p : Fin 256) (k : Fin 2048) :
    Fr.blockAt m c 2 t (ix2 p k) = Fr.entry m c main_arg2 (ix2 (rowOf t p) k) := by
  show Fr.entry m c main_arg2 (((cfg0.win 2).blk t).view.emb (ix2 p k)) = Fr.entry m c main_arg2 (ix2 (rowOf t p) k)
  obtain ⟨e00, e01, e10, e11, e20, e21, e30, e31, e40, e41, e50, e51, e60, e61, e70, e71, e80, e81⟩ := index_facts t
  refine congrArg (Fr.entry m c main_arg2) (funext fun a => Fin.ext ?_)
  match a with
  | ⟨0, _⟩ => show win0_2.index t (0 : Fin 2) * 256 + 1 * p.val = t.val * 256 + p.val; omega
  | ⟨1, _⟩ => show win0_2.index t (1 : Fin 2) * 2048 + 1 * k.val = k.val; omega
theorem read_in3 (c : Dev nD) (t : Fin cfg0.N) (p : Fin 256) (k : Fin 2048) :
    Fr.blockAt m c 3 t (ix2 p k) = Fr.entry m c main_arg3 (ix2 (rowOf t p) k) := by
  show Fr.entry m c main_arg3 (((cfg0.win 3).blk t).view.emb (ix2 p k)) = Fr.entry m c main_arg3 (ix2 (rowOf t p) k)
  obtain ⟨e00, e01, e10, e11, e20, e21, e30, e31, e40, e41, e50, e51, e60, e61, e70, e71, e80, e81⟩ := index_facts t
  refine congrArg (Fr.entry m c main_arg3) (funext fun a => Fin.ext ?_)
  match a with
  | ⟨0, _⟩ => show win0_3.index t (0 : Fin 2) * 256 + 1 * p.val = t.val * 256 + p.val; omega
  | ⟨1, _⟩ => show win0_3.index t (1 : Fin 2) * 2048 + 1 * k.val = k.val; omega
theorem read_in4 (c : Dev nD) (t : Fin cfg0.N) (p : Fin 256) (k : Fin 2048) :
    Fr.blockAt m c 4 t (ix2 p k) = Fr.entry m c main_arg4 (ix2 (rowOf t p) k) := by
  show Fr.entry m c main_arg4 (((cfg0.win 4).blk t).view.emb (ix2 p k)) = Fr.entry m c main_arg4 (ix2 (rowOf t p) k)
  obtain ⟨e00, e01, e10, e11, e20, e21, e30, e31, e40, e41, e50, e51, e60, e61, e70, e71, e80, e81⟩ := index_facts t
  refine congrArg (Fr.entry m c main_arg4) (funext fun a => Fin.ext ?_)
  match a with
  | ⟨0, _⟩ => show win0_4.index t (0 : Fin 2) * 256 + 1 * p.val = t.val * 256 + p.val; omega
  | ⟨1, _⟩ => show win0_4.index t (1 : Fin 2) * 2048 + 1 * k.val = k.val; omega
theorem read_in5 (c : Dev nD) (t : Fin cfg0.N) (p : Fin 256) (k : Fin 2048) :
    Fr.blockAt m c 5 t (ix2 p k) = Fr.entry m c main_arg5 (ix2 (rowOf t p) k) := by
  show Fr.entry m c main_arg5 (((cfg0.win 5).blk t).view.emb (ix2 p k)) = Fr.entry m c main_arg5 (ix2 (rowOf t p) k)
  obtain ⟨e00, e01, e10, e11, e20, e21, e30, e31, e40, e41, e50, e51, e60, e61, e70, e71, e80, e81⟩ := index_facts t
  refine congrArg (Fr.entry m c main_arg5) (funext fun a => Fin.ext ?_)
  match a with
  | ⟨0, _⟩ => show win0_5.index t (0 : Fin 2) * 256 + 1 * p.val = t.val * 256 + p.val; omega
  | ⟨1, _⟩ => show win0_5.index t (1 : Fin 2) * 2048 + 1 * k.val = k.val; omega
theorem read_in6 (c : Dev nD) (t : Fin cfg0.N) (p : Fin 256) (k : Fin 2048) :
    Fr.blockAt m c 6 t (ix2 p k) = Fr.entry m c main_arg6 (ix2 (rowOf t p) k) := by
  show Fr.entry m c main_arg6 (((cfg0.win 6).blk t).view.emb (ix2 p k)) = Fr.entry m c main_arg6 (ix2 (rowOf t p) k)
  obtain ⟨e00, e01, e10, e11, e20, e21, e30, e31, e40, e41, e50, e51, e60, e61, e70, e71, e80, e81⟩ := index_facts t
  refine congrArg (Fr.entry m c main_arg6) (funext fun a => Fin.ext ?_)
  match a with
  | ⟨0, _⟩ => show win0_6.index t (0 : Fin 2) * 256 + 1 * p.val = t.val * 256 + p.val; omega
  | ⟨1, _⟩ => show win0_6.index t (1 : Fin 2) * 2048 + 1 * k.val = k.val; omega
theorem read_len (c : Dev nD) (t : Fin cfg0.N) (p : Fin 256) :
    Fr.blockAt m c 7 t (ix2 p (0 : Fin 1)) = Fr.entry m c main_v0 (ix2 (rowOf t p) (0 : Fin 1)) := by
  show Fr.entry m c main_v0 (((cfg0.win 7).blk t).view.emb (ix2 p (0 : Fin 1))) = Fr.entry m c main_v0 (ix2 (rowOf t p) (0 : Fin 1))
  obtain ⟨e00, e01, e10, e11, e20, e21, e30, e31, e40, e41, e50, e51, e60, e61, e70, e71, e80, e81⟩ := index_facts t
  refine congrArg (Fr.entry m c main_v0) (funext fun a => Fin.ext ?_)
  match a with
  | ⟨0, _⟩ => show win0_7.index t (0 : Fin 2) * 256 + 1 * p.val = t.val * 256 + p.val; omega
  | ⟨1, _⟩ => show win0_7.index t (1 : Fin 2) * 1 + 1 * 0 = 0; omega
theorem place_out (t : Fin cfg0.N) (p : Fin 256) (q : Fin 4) :
    ((cfg0.win 8).blk t).view.emb (ix2 p q) = ix2 (rowOf t p) q := by
  obtain ⟨e00, e01, e10, e11, e20, e21, e30, e31, e40, e41, e50, e51, e60, e61, e70, e71, e80, e81⟩ := index_facts t
  refine funext fun a => Fin.ext ?_
  match a with
  | ⟨0, _⟩ => show win0_8.index t (0 : Fin 2) * 256 + 1 * p.val = t.val * 256 + p.val; omega
  | ⟨1, _⟩ => show win0_8.index t (1 : Fin 2) * 4 + 1 * q.val = q.val; omega

theorem zeros : (![0, 0] : Fin 2 → Nat) = fun _ => 0 := funext fun a => by fin_cases a <;> rfl

/-- WHAT POINT `t` WRITES BACK is block `t` of the array of losses. -/
theorem flushed_eq (c : Dev nD) (t : Fin cfg0.N) :
    (Fr.dats m 0 c).flushed 8 t = ((cfg0.win 8).blk t).view.read (Elt Ideal) (found m c) := by
  show (cfg0.win 8).cut (grid0.coords t) ((Fr.dats m 0 c).after 8 t) = _
  rw [Fr.after_out]
  unfold Fr.rowsOut
  rw [View.canon_unit_zero zeros]
  simp only [View.ld_unit_zero (S := S256x2048) zeros, View.ld_unit_zero (S := S256x1) zeros]
  funext y
  obtain ⟨p, q, rfl⟩ : ∃ (p : Fin 256) (q : Fin 4), y = ix2 p q := ⟨y 0, y 1, eq_ix2 y⟩
  refine (Rows.stored_apply _ _ _ _ _ _ _ _ p q).trans ?_
  simp only [read_in0 m c t p, read_in1 m c t p, read_in2 m c t p, read_in3 m c t p, read_in4 m c t p, read_in5 m c t p, read_in6 m c t p, read_len m c t p]
  show _ = found m c (((cfg0.win 8).blk t).view.emb (ix2 p q))
  rw [place_out t p q]
  rfl

/-- An index of the result lies in point `t`'s block iff each coordinate lies in the block's range. -/
theorem mem_blk (t : Fin cfg0.N) (i : S4096x4.Idx) :
    i ∈ ((cfg0.win 8).blk t).view.set ↔ ∀ a : Fin 2, win0_8.index t a * S256x4.size a ≤ (i a).val ∧ (i a).val < win0_8.index t a * S256x4.size a + S256x4.size a := by
  show i ∈ ((View.whole main_v1).slice (win0_8.rect t)).set ↔ _
  rw [View.set_slice_whole, Rect.mem_set_unit]
  exact Iff.rfl

/-- Row `r` is written back by point `r / 256`. -/
theorem covered (i : S4096x4.Idx) : ∃ t : Fin cfg0.N, (cfg0.win 8).flush t = true ∧ i ∈ ((cfg0.win 8).blk t).view.set := by
  have hi0 : (i 0).val < 4096 := (i 0).isLt
  have hi1 : (i 1).val < 4 := (i 1).isLt
  have hN : cfg0.N = 16 := N_0
  have ht : (i 0).val / 256 < cfg0.N := by omega
  refine ⟨⟨(i 0).val / 256, ht⟩, flush0_8 _, ?_⟩
  rw [mem_blk]
  obtain ⟨e00, e01, e10, e11, e20, e21, e30, e31, e40, e41, e50, e51, e60, e61, e70, e71, e80, e81⟩ := index_facts ⟨(i 0).val / 256, ht⟩
  intro a
  match a with
  | ⟨0, _⟩ =>
    show win0_8.index ⟨(i 0).val / 256, ht⟩ (0 : Fin 2) * 256 ≤ (i 0).val ∧ (i 0).val < win0_8.index ⟨(i 0).val / 256, ht⟩ (0 : Fin 2) * 256 + 256
    rw [e80]; show (i 0).val / 256 * 256 ≤ (i 0).val ∧ (i 0).val < (i 0).val / 256 * 256 + 256; omega
  | ⟨1, _⟩ =>
    show win0_8.index ⟨(i 0).val / 256, ht⟩ (1 : Fin 2) * 4 ≤ (i 1).val ∧ (i 1).val < win0_8.index ⟨(i 0).val / 256, ht⟩ (1 : Fin 2) * 4 + 4
    rw [e81]; omega

/-- THE RESULT ARRAY after the launch: the array of losses of the arrays the launch found. -/
theorem final (c : Dev nD) : (Fr.dats m 0 c).arrAt 8 cfg0.N = found m c :=
  (Fr.dats m 0 c).arrAt_eq_of_cover 8 (found m c) (fun t _ => flushed_eq m c t) covered

end Cert.KernelIdeal.Whole

end
-- ==== Proof.KernelValue.lean ====
/-
  The five numbers the kernel's program returns, as one function of its argument arrays.

  After the launch the 4096 × 4 result holds, in row `r`, the four losses of row `r`. The host lines that follow cut
  out each column, flatten it to a vector of 4096 entries, and take its mean (the sum from zero, divided by 4096); the
  attention column's mean is halved; the five results are the sum of the four numbers followed by the four numbers.
  `summary` names that last stretch as a function of four vectors, so that it is never opened again: the program's
  result is `summary` of the four columns of the array of losses.
-/
import proofs.«100875_j51651276701971_2_alg».proof.Proof.WholeArray
import Idealize.ShloMosaic.Lib.ValueLayout
import Idealize.ShloMosaic.Lib.StableHlo.Run

set_option maxRecDepth 16384

noncomputable section

namespace Cert.KernelIdeal.Outcome

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Losses

/-- A column `[a, 1]` flattened to a vector reads, at `p`, the column's entry of row `p`. -/
theorem flat_apply {α : Type} {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- Column 0 of a 4096 × 4 array, as the host lines after the launch cut it out and flatten it. -/
def col0 (X : S4096x4.Idx → EReal) : S4096.Idx → EReal :=
  shapeCast S4096 (extractStridedSlice S4096x1 ![0, 0] X slices_S4096x4_S4096x1_0_0) shapeCasts_S4096x1_S4096
theorem col0_apply (X : S4096x4.Idx → EReal) (r : Fin 4096) : col0 X (ix1 r) = X (ix2 r (0 : Fin 4)) := by
  unfold col0
  rw [flat_apply]
  exact slice2_axis1_apply 0 X _ r (0 : Fin 1) (0 : Fin 4) rfl
/-- Column 1 of a 4096 × 4 array, as the host lines after the launch cut it out and flatten it. -/
def col1 (X : S4096x4.Idx → EReal) : S4096.Idx → EReal :=
  shapeCast S4096 (extractStridedSlice S4096x1 ![0, 1] X slices_S4096x4_S4096x1_0_1) shapeCasts_S4096x1_S4096
theorem col1_apply (X : S4096x4.Idx → EReal) (r : Fin 4096) : col1 X (ix1 r) = X (ix2 r (1 : Fin 4)) := by
  unfold col1
  rw [flat_apply]
  exact slice2_axis1_apply 1 X _ r (0 : Fin 1) (1 : Fin 4) rfl
/-- Column 2 of a 4096 × 4 array, as the host lines after the launch cut it out and flatten it. -/
def col2 (X : S4096x4.Idx → EReal) : S4096.Idx → EReal :=
  shapeCast S4096 (extractStridedSlice S4096x1 ![0, 2] X slices_S4096x4_S4096x1_0_2) shapeCasts_S4096x1_S4096
theorem col2_apply (X : S4096x4.Idx → EReal) (r : Fin 4096) : col2 X (ix1 r) = X (ix2 r (2 : Fin 4)) := by
  unfold col2
  rw [flat_apply]
  exact slice2_axis1_apply 2 X _ r (0 : Fin 1) (2 : Fin 4) rfl
/-- Column 3 of a 4096 × 4 array, as the host lines after the launch cut it out and flatten it. -/
def col3 (X : S4096x4.Idx → EReal) : S4096.Idx → EReal :=
  shapeCast S4096 (extractStridedSlice S4096x1 ![0, 3] X slices_S4096x4_S4096x1_0_3) shapeCasts_S4096x1_S4096
theorem col3_apply (X : S4096x4.Idx → EReal) (r : Fin 4096) : col3 X (ix1 r) = X (ix2 r (3 : Fin 4)) := by
  unfold col3
  rw [flat_apply]
  exact slice2_axis1_apply 3 X _ r (0 : Fin 1) (3 : Fin 4) rfl

/-- The mean of 4096 numbers: their sum from zero, divided by 4096. -/
def mean (v : S4096.Idx → EReal) : S_.Idx → EReal :=
  Host.divf (F := Ideal) (φ := .f32) (Host.reduceAdd (F := Ideal) (φ := .f32) v (constant (F := Ideal) S_ .f32 0x00000000#32) reducesTo_S4096_S_d0 h_S_)
    (constant (F := Ideal) S_ .f32 0x45800000#32)

/-- One half of a number. -/
def half (x : S_.Idx → EReal) : S_.Idx → EReal := mulf (F := Ideal) (φ := .f32) (constant (F := Ideal) S_ .f32 0x3F000000#32) x

/-- The five results from the four vectors of per-row losses: the total, then the mean divergence of the starts, that of
    the ends, half the mean attention loss, and the mean ratio loss. -/
def summary (a b c d : S4096.Idx → EReal) : S5.Idx → EReal :=
  concatenate S5 0 [⟨S1, broadcastInDim S1 ![] bcast_S_S1 (addf (F := Ideal) (φ := .f32) (addf (F := Ideal) (φ := .f32) (addf (F := Ideal) (φ := .f32) (mean a) (mean b)) (half (mean c))) (mean d))⟩,
    ⟨S1, broadcastInDim S1 ![] bcast_S_S1 (mean a)⟩, ⟨S1, broadcastInDim S1 ![] bcast_S_S1 (mean b)⟩,
    ⟨S1, broadcastInDim S1 ![] bcast_S_S1 (half (mean c))⟩, ⟨S1, broadcastInDim S1 ![] bcast_S_S1 (mean d)⟩]
    concatenates_S1_S1_S1_S1_S1_S5_d0

variable (m : (ℓ : Loc nD τ sig) → Buf (Elt Ideal) ℓ) (ρ : Dev nD → PrngReg)

/-- The length column the launch finds is the length vector written as a column. -/
theorem lengths_found (c : Dev nD) :
    (Fr.entry m c main_v0 : S4096x1.Idx → BitVec 32) = shapeCast S4096x1 (m ((c : Thread nD τ).loc main_arg7)) shapeCasts_S4096_S4096x1 := by
  show StableHlo.after hostOps0 (fun b => m (c, b)) (Proc.devRef .tc main_v0) = _
  after_results
  rfl

theorem length_at (c : Dev nD) (r : Fin 4096) :
    (Fr.entry m c main_v0 : S4096x1.Idx → BitVec 32) (ix2 r (0 : Fin 1)) = m ((c : Thread nD τ).loc main_arg7) (ix1 r) := by
  rw [lengths_found]
  exact Rows.column_apply _ _ r 0

/-- Running two stretches of host lines is running the second on what the first leaves. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- The last host line: five one-entry results set side by side. -/
abbrev lastLine : HloOp τ sig (Elt Ideal) :=
  StableHlo.nary ![main_v22, main_v23, main_v24, main_v25, main_v26] main_v27
    (fun u => concatenate S5 0 [⟨S1, u 0⟩, ⟨S1, u 1⟩, ⟨S1, u 2⟩, ⟨S1, u 3⟩, ⟨S1, u 4⟩] concatenates_S1_S1_S1_S1_S1_S5_d0)

/-- The lines after the launch are the lines that compute the five numbers, then the last line. -/
theorem tail_split : (hostOps1 : List (HloOp τ sig (Elt Ideal))) = hostOps1.dropLast ++ [lastLine] := rfl

theorem after_tail (V : Valuation τ sig (Elt Ideal)) (b : DevRef τ sig) :
    StableHlo.after hostOps1 V b = lastLine.result (StableHlo.after hostOps1.dropLast V) b :=
  (congrArg (fun l => StableHlo.after l V b) tail_split).trans (by rw [after_append]; rfl)

/-- The last line's result: its five operands' contents side by side. -/
theorem last_result (F : Valuation τ sig (Elt Ideal)) :
    lastLine.result F (Proc.devRef .tc main_v27)
      = concatenate S5 0 [⟨S1, F (Proc.devRef .tc main_v22)⟩, ⟨S1, F (Proc.devRef .tc main_v23)⟩, ⟨S1, F (Proc.devRef .tc main_v24)⟩,
          ⟨S1, F (Proc.devRef .tc main_v25)⟩, ⟨S1, F (Proc.devRef .tc main_v26)⟩] concatenates_S1_S1_S1_S1_S1_S5_d0 := by
  rw [nary_result]
  rfl

/-- It writes no other buffer. -/
theorem last_keeps (F : Valuation τ sig (Elt Ideal)) {r : Ref sig .tc} (h : r ≠ main_v27) :
    lastLine.result F (Proc.devRef .tc r) = F (Proc.devRef .tc r) := nary_result_ne _ _ _ _ _ F h

/-- What core `c`'s buffers hold when the launch ends: the launch's arrays at what the blocks written back make of
    them, every other buffer as the launch found it. -/
abbrev atExit (c : Dev nD) : Valuation τ sig (Elt Ideal) :=
  Pipeline.withArrays spec0 c (Fr.entry0 m c) (fun w => (Fr.dats m 0 c).arrAt w cfg0.N)

/-- The result array then holds the array of losses. -/
theorem exit_result (c : Dev nD) : atExit m c (Proc.devRef .tc main_v1) = Whole.found m c :=
  (Pipeline.withArrays_arr spec0 launch0.win.arr_inj c _ _ 8).trans (Whole.final m c)

/-- The total of the four numbers. -/
def total (c : Dev nD) : S_.Idx → EReal :=
  addf (F := Ideal) (φ := .f32) (addf (F := Ideal) (φ := .f32) (addf (F := Ideal) (φ := .f32) (mean (col0 (Whole.found m c))) (mean (col1 (Whole.found m c))))
    (half (mean (col2 (Whole.found m c))))) (mean (col3 (Whole.found m c)))

/-! The five operands of the last line, each from the result array the launch left. -/
theorem operand22 (c : Dev nD) :
    StableHlo.after hostOps1.dropLast (atExit m c) (Proc.devRef .tc main_v22) = broadcastInDim S1 ![] bcast_S_S1 (total m c) := by
  rw [← last_keeps (StableHlo.after hostOps1.dropLast (atExit m c)) (by decide : main_v22 ≠ main_v27), ← after_tail]
  after_results_simp
  rw [exit_result m c]
  rfl
theorem operand23 (c : Dev nD) :
    StableHlo.after hostOps1.dropLast (atExit m c) (Proc.devRef .tc main_v23) = broadcastInDim S1 ![] bcast_S_S1 (mean (col0 (Whole.found m c))) := by
  rw [← last_keeps (StableHlo.after hostOps1.dropLast (atExit m c)) (by decide : main_v23 ≠ main_v27), ← after_tail]
  after_results_simp
  rw [exit_result m c]
  rfl
theorem operand24 (c : Dev nD) :
    StableHlo.after hostOps1.dropLast (atExit m c) (Proc.devRef .tc main_v24) = broadcastInDim S1 ![] bcast_S_S1 (mean (col1 (Whole.found m c))) := by
  rw [← last_keeps (StableHlo.after hostOps1.dropLast (atExit m c)) (by decide : main_v24 ≠ main_v27), ← after_tail]
  after_results_simp
  rw [exit_result m c]
  rfl
theorem operand25 (c : Dev nD) :
    StableHlo.after hostOps1.dropLast (atExit m c) (Proc.devRef .tc main_v25) = broadcastInDim S1 ![] bcast_S_S1 (half (mean (col2 (Whole.found m c)))) := by
  rw [← last_keeps (StableHlo.after hostOps1.dropLast (atExit m c)) (by decide : main_v25 ≠ main_v27), ← after_tail]
  after_results_simp
  rw [exit_result m c]
  rfl
theorem operand26 (c : Dev nD) :
    StableHlo.after hostOps1.dropLast (atExit m c) (Proc.devRef .tc main_v26) = broadcastInDim S1 ![] bcast_S_S1 (mean (col3 (Whole.found m c))) := by
  rw [← last_keeps (StableHlo.after hostOps1.dropLast (atExit m c)) (by decide : main_v26 ≠ main_v27), ← after_tail]
  after_results_simp
  rw [exit_result m c]
  rfl

/-- What the program returns on core `c`. -/
def outcome (c : Dev nD) : S5.Idx → EReal :=
  summary (col0 (Whole.found m c)) (col1 (Whole.found m c)) (col2 (Whole.found m c)) (col3 (Whole.found m c))

/-- The host lines after the launch, applied to the result array the launch leaves, compute `outcome`. -/
theorem tail_eq (c : Dev nD) :
    Pipeline.afterTail₀ cfgs (Fr.dats m) 0 (Fr.entry0 m) [hostOps1] c main_v27 = outcome m c := by
  unfold Pipeline.afterTail₀
  show StableHlo.after hostOps1 (atExit m c) (Proc.devRef .tc main_v27) = _
  rw [after_tail, last_result, operand22, operand23, operand24, operand25, operand26]
  rfl

/-- THE RUN, with the result named: every weakly fair execution terminates without a fault, the five results are
    `outcome`, and the eight arguments end as they began. -/
theorem run_value : θ_run defs (onTc (τ := τ) (main (F := Ideal))) ⟨m, fun _ => 0, ρ⟩ (fun r => ∀ c : Dev nD,
      r.2.mem ((c.tc : Thread nD τ).loc main_v27) = outcome m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).2 main_v27 (Pipeline.mem_restRefs_of main_v27 (by decide) (by decide))).trans (tail_eq m c),
      ((h c).1 0).trans (((Fr.dats m 0 c).arrAt_in 0 rfl _).trans ((Fr.arrays_eq m c 0).trans (Fr.entry_arg0 m c))),
      ((h c).1 1).trans (((Fr.dats m 0 c).arrAt_in 1 rfl _).trans ((Fr.arrays_eq m c 1).trans (Fr.entry_arg1 m c))),
      ((h c).1 2).trans (((Fr.dats m 0 c).arrAt_in 2 rfl _).trans ((Fr.arrays_eq m c 2).trans (Fr.entry_arg2 m c))),
      ((h c).1 3).trans (((Fr.dats m 0 c).arrAt_in 3 rfl _).trans ((Fr.arrays_eq m c 3).trans (Fr.entry_arg3 m c))),
      ((h c).1 4).trans (((Fr.dats m 0 c).arrAt_in 4 rfl _).trans ((Fr.arrays_eq m c 4).trans (Fr.entry_arg4 m c))),
      ((h c).1 5).trans (((Fr.dats m 0 c).arrAt_in 5 rfl _).trans ((Fr.arrays_eq m c 5).trans (Fr.entry_arg5 m c))),
      ((h c).1 6).trans (((Fr.dats m 0 c).arrAt_in 6 rfl _).trans ((Fr.arrays_eq m c 6).trans (Fr.entry_arg6 m c))),
      ((h c).2 main_arg7 (Pipeline.mem_restRefs_of main_arg7 (by decide) (by decide))).trans (Fr.final_arg7 m (Fr.dats m) c)⟩) (Fr.run_main m ρ)

end Cert.KernelIdeal.Outcome

end
-- ==== Proof.RefRows.lean ====
/-
  The reference's four per-row vectors, read row by row.

  The reference builds the mask as a 4096 × 2048 array of zeros and ones (the comparison of the lane number with the
  row's length, converted to a number) and MULTIPLIES each summand by it before summing along the row. Multiplying an
  extended real by the bit read as a number is choosing between the summand and zero by the bit (`Losses.mul_bit`), so
  entry `r` of each vector is the loss of row `r` that `Losses` names: the two masked divergences, the unmasked
  attention loss, and the masked scaled ratio loss.
-/
import proofs.«100875_j51651276701971_2_alg».proof.Proof.Gen.ReferenceIdeal.Read
import proofs.«100875_j51651276701971_2_alg».proof.Proof.Losses
import Idealize.ShloMosaic.Lib.ValueIdx

noncomputable section

namespace Cert.ReferenceIdeal.Rows

open Idealize.ShloMosaic Idealize.ShloMosaic.ValueIdx Cert.ReferenceIdeal Cert.ReferenceIdeal.Read Cert.Losses

/-! ## Where each stage reads its operand -/

/-- A row's sum runs over the row: position `k` of the sum at row `r` is entry `(r, k)`. -/
theorem at_row11 (r : Fin 4096) (k : Fin 2048) : idx_main_v11 (ix1 r) k = ix2 r k :=
  funext fun a => Fin.ext (by match a with | ⟨0, _⟩ => rfl | ⟨1, _⟩ => rfl)
theorem at_row19 (r : Fin 4096) (k : Fin 2048) : idx_main_v19 (ix1 r) k = ix2 r k :=
  funext fun a => Fin.ext (by match a with | ⟨0, _⟩ => rfl | ⟨1, _⟩ => rfl)
theorem at_row28 (r : Fin 4096) (k : Fin 2048) : idx_main_v28 (ix1 r) k = ix2 r k :=
  funext fun a => Fin.ext (by match a with | ⟨0, _⟩ => rfl | ⟨1, _⟩ => rfl)
theorem at_row29 (r : Fin 4096) (k : Fin 2048) : idx_main_v29 (ix1 r) k = ix2 r k :=
  funext fun a => Fin.ext (by match a with | ⟨0, _⟩ => rfl | ⟨1, _⟩ => rfl)
theorem at_row40 (r : Fin 4096) (k : Fin 2048) : idx_main_v40 (ix1 r) k = ix2 r k :=
  funext fun a => Fin.ext (by match a with | ⟨0, _⟩ => rfl | ⟨1, _⟩ => rfl)
theorem at_row42 (r : Fin 4096) (k : Fin 2048) : idx_main_v42 (ix1 r) k = ix2 r k :=
  funext fun a => Fin.ext (by match a with | ⟨0, _⟩ => rfl | ⟨1, _⟩ => rfl)
/-- The length an entry `(r, k)` is compared with is row `r`'s. -/
theorem len_at (r : Fin 4096) (k : Fin 2048) : idx_main_v2 (idx_main_v4 (ix2 r k)) = ix1 r :=
  funext fun a => Fin.ext (by match a with | ⟨0, _⟩ => rfl)
/-- The lane number an entry `(r, k)` carries is `k`. -/
theorem lane_at (r : Fin 4096) (k : Fin 2048) : idx_main_v1 (idx_main_v3 (ix2 r k)) = ix1 k :=
  funext fun a => Fin.ext (by match a with | ⟨0, _⟩ => rfl)

/-- THE MASK at `(r, k)`: the bit "`k` is inside row `r`", read as the number zero or one. -/
theorem mask_at (x7 : (⟨S4096, .i32⟩ : BufTy).Contents (Elt Ideal)) (r : Fin 4096) (k : Fin 2048) :
    val_main_v6 (F := Ideal) x7 (ix2 r k) = ((((inside (x7 (ix1 r)) k).toNat : ℝ)) : EReal) := by
  rw [val_main_v6_apply, val_main_v5_apply, val_main_v3_apply, val_main_v1_apply, val_main_v0_apply, val_main_v4_apply,
    val_main_v2_apply, len_at, lane_at]
  rfl

/-! ## The four vectors -/

theorem start_row (x0 x4 : (⟨S4096x2048, .f32⟩ : BufTy).Contents (Elt Ideal)) (x7 : (⟨S4096, .i32⟩ : BufTy).Contents (Elt Ideal)) (r : Fin 4096) :
    val_main_v12 (F := Ideal) x0 x4 x7 (ix1 r) = klLoss (fun k => x0 (ix2 r k)) (fun k => x4 (ix2 r k)) (x7 (ix1 r)) := by
  rw [val_main_v12_apply, val_main_v11_apply, val_main_cst_apply]
  unfold klLoss
  simp only [Ideal.hostNegf_def, Ideal.negf_def, Ideal.ofBits_def, Ideal.ofBits_zero_f32, zero_add]
  refine congrArg Neg.neg (Finset.sum_congr rfl fun k _ => ?_)
  rw [at_row11, val_main_v10_apply, mask_at, val_main_v9_apply, val_main_v8_apply, val_main_v7_apply]
  exact mul_bit _ _

theorem end_row (x1 x5 : (⟨S4096x2048, .f32⟩ : BufTy).Contents (Elt Ideal)) (x7 : (⟨S4096, .i32⟩ : BufTy).Contents (Elt Ideal)) (r : Fin 4096) :
    val_main_v20 (F := Ideal) x1 x5 x7 (ix1 r) = klLoss (fun k => x1 (ix2 r k)) (fun k => x5 (ix2 r k)) (x7 (ix1 r)) := by
  rw [val_main_v20_apply, val_main_v19_apply, val_main_cst_2_apply]
  unfold klLoss
  simp only [Ideal.hostNegf_def, Ideal.negf_def, Ideal.ofBits_def, Ideal.ofBits_zero_f32, zero_add]
  refine congrArg Neg.neg (Finset.sum_congr rfl fun k _ => ?_)
  rw [at_row19, val_main_v18_apply, mask_at, val_main_v17_apply, val_main_v16_apply, val_main_v15_apply]
  exact mul_bit _ _

theorem attn_row (x3 x6 : (⟨S4096x2048, .f32⟩ : BufTy).Contents (Elt Ideal)) (r : Fin 4096) :
    val_main_v32 (F := Ideal) x3 x6 (ix1 r) = attnLoss (fun k => x3 (ix2 r k)) (fun k => x6 (ix2 r k)) := by
  rw [val_main_v32_apply, val_main_v28_apply, val_main_v31_apply, val_main_v29_apply, val_main_v30_apply, val_main_cst_8_apply,
    val_main_cst_6_apply, val_main_cst_7_apply]
  unfold attnLoss
  simp only [Ideal.hostDivf_def, Ideal.addf_def, Ideal.ofBits_def, Ideal.ofBits_zero_f32, zero_add]
  refine congrArg₂ Ideal.div (Finset.sum_congr rfl fun k _ => ?_) (congrArg (· + _) (Finset.sum_congr rfl fun k _ => ?_))
  · rw [at_row28, val_main_v27_apply, val_main_v23_apply, val_main_v26_apply, val_main_v25_apply, val_main_v24_apply, val_main_cst_5_apply]
    rfl
  · rw [at_row29]

theorem mid_row (x2 x6 : (⟨S4096x2048, .f32⟩ : BufTy).Contents (Elt Ideal)) (x7 : (⟨S4096, .i32⟩ : BufTy).Contents (Elt Ideal)) (r : Fin 4096) :
    val_main_v47 (F := Ideal) x2 x6 x7 (ix1 r) = midLoss (fun k => x2 (ix2 r k)) (fun k => x6 (ix2 r k)) (x7 (ix1 r)) := by
  rw [val_main_v47_apply, val_main_v46_apply, val_main_v45_apply, val_main_cst_15_apply, val_main_v40_apply, val_main_cst_12_apply,
    val_main_v44_apply, val_main_v42_apply, val_main_cst_13_apply, val_main_v43_apply, val_main_cst_14_apply]
  unfold midLoss
  simp only [Ideal.hostDivf_def, Ideal.addf_def, Ideal.mulf_def, Ideal.ofBits_def, Ideal.ofBits_zero_f32, zero_add]
  refine congrArg₂ Ideal.div (congrArg (scale * ·) (Finset.sum_congr rfl fun k _ => ?_)) (congrArg (· + _) (Finset.sum_congr rfl fun k _ => ?_))
  · rw [at_row40, val_main_v39_apply, mask_at, val_main_v38_apply, val_main_v36_apply, val_main_v37_apply]
    exact mul_bit _ _
  · rw [at_row42, val_main_v41_apply, mask_at]
    exact mul_bit _ _

end Cert.ReferenceIdeal.Rows

end
-- ==== Proof.Bridge.lean ====
/-
  The two programs compute one value.

  Row `r` of the kernel's result array holds the four losses of row `r` of the arrays it was launched on; entry `r` of
  each of the reference's four vectors holds the same loss of the same row. So column by column the kernel's array is
  the reference's vector, and the last stretch of both programs — the means, the halving, the total, the five results
  side by side — is the same function `summary` of those four vectors.
-/
import proofs.«100875_j51651276701971_2_alg».proof.Proof.KernelValue
import proofs.«100875_j51651276701971_2_alg».proof.Proof.RefRows

set_option maxRecDepth 16384

noncomputable section

namespace Cert.Bridge

open Idealize.ShloMosaic Idealize.ShloMosaic.TcCoe Idealize.ShloMosaic.ValueIdx Idealize.SL.Sem Cert.Losses
open Cert.KernelIdeal (Fr.entry Fr.entry_arg0 Fr.entry_arg1 Fr.entry_arg2 Fr.entry_arg3 Fr.entry_arg4 Fr.entry_arg5 Fr.entry_arg6)
open Cert.KernelIdeal.Outcome Cert.KernelIdeal.Whole

variable (m : (ℓ : Loc Cert.KernelIdeal.nD Cert.KernelIdeal.τ Cert.KernelIdeal.sig) → Buf (Elt Ideal) ℓ) (c : Dev Cert.KernelIdeal.nD)

/-- Column 0 of the kernel's array is the reference's vector of start divergences. -/
theorem col0_eq : col0 (found m c) = Cert.ReferenceIdeal.Read.val_main_v12 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) := by
  funext i
  obtain ⟨r, rfl⟩ : ∃ r : Fin 4096, i = ix1 r := ⟨i 0, eq_ix1 i⟩
  rw [col0_apply]
  refine Eq.trans ?_ (Cert.ReferenceIdeal.Rows.start_row _ _ _ r).symm
  show klLoss (fun k => Fr.entry m c Cert.KernelIdeal.main_arg0 (ix2 r k)) (fun k => Fr.entry m c Cert.KernelIdeal.main_arg4 (ix2 r k)) (Fr.entry m c Cert.KernelIdeal.main_v0 (ix2 r (0 : Fin 1))) = _
  rw [Fr.entry_arg0 m c, Fr.entry_arg4 m c, length_at m c r]

/-- Column 1 is the vector of end divergences. -/
theorem col1_eq : col1 (found m c) = Cert.ReferenceIdeal.Read.val_main_v20 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (m ((c.tc : Thread Cert.KernelIdeal.nD Cert.KernelIdeal.τ).loc Cert.KernelIdeal.main_arg7)) := by
  funext i
  obtain ⟨r, rfl⟩ : ∃ r : Fin 4096, i = ix1 r := ⟨i 0, eq_ix1 i⟩
  rw [col1_apply]
  refine Eq.trans ?_ (Cert.ReferenceIdeal.Rows.end_row _ _ _ r).symm
  show klLoss (fun k => Fr.entry m c Cert.KernelIdeal.main_arg1 (ix2 r k)) (fun k => Fr.entry m c Cert.KernelIdeal.main_arg5 (ix2 r k)) (Fr.entry m c Cert.KernelIdeal.main_v0 (ix2 r (0 : Fin 1))) = _
  rw [Fr.entry_arg1 m c, Fr.entry_arg5 m c, length_at m c r]

/-- Column 2 is the vector of attention losses. -/
theorem col2_eq : col2 (found m c) = Cert.ReferenceIdeal.Read.val_main_v32 (F := Ideal) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) := by
  funext i
  obtain ⟨r, rfl⟩ : ∃ r : Fin 4096, i = ix1 r := ⟨i 0, eq_ix1 i⟩
  rw [col2_apply]
  refine Eq.trans ?_ (Cert.ReferenceIdeal.Rows.attn_row _ _ r).symm
  show attnLoss (fun k => Fr.entry m c Cert.KernelIdeal.main_arg3 (ix2 r k)) (fun k => Fr.entry m c Cert.KernelIdeal.main_arg6 (ix2 r k)) = _
  rw [Fr.entry_arg3 m c, Fr.entry_arg6 m c]

/-- Column 3 is the vector of ratio losses. -/
theorem col3_eq : col3 (found m c) = Cert.ReferenceIdeal.Read.val_main_v47 (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  funext i
  obtain ⟨r, rfl⟩ : ∃ r : Fin 4096, i = ix1 r := ⟨i 0, eq_ix1 i⟩
  rw [col3_apply]
  refine Eq.trans ?_ (Cert.ReferenceIdeal.Rows.mid_row _ _ _ r).symm
  show midLoss (fun k => Fr.entry m c Cert.KernelIdeal.main_arg2 (ix2 r k)) (fun k => Fr.entry m c Cert.KernelIdeal.main_arg6 (ix2 r k)) (Fr.entry m c Cert.KernelIdeal.main_v0 (ix2 r (0 : Fin 1))) = _
  rw [Fr.entry_arg2 m c, Fr.entry_arg6 m c, length_at m c r]

/-- THE RESULTS AGREE: from memories that agree on the eight arguments, the kernel's five results are the reference's. -/
theorem outcome_eq (m' : (ℓ : Loc Cert.ReferenceIdeal.nD Cert.ReferenceIdeal.τ Cert.ReferenceIdeal.sig) → Buf (Elt Ideal) ℓ)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v58 m' c = outcome m c := by
  obtain ⟨h0, h1, h2, h3, h4, h5, h6, h7⟩ := h
  rw [Cert.ReferenceIdeal.Read.val_main_v58_eq, h0, h1, h2, h3, h4, h5, h6, h7]
  unfold outcome
  rw [col0_eq, col1_eq, col2_eq, col3_eq]
  rfl

end Cert.Bridge

end
-- ==== Proof.lean ====
/-
  The kernel and its reference compute the same five losses.

  Both programs take seven 4096 × 2048 arrays and a vector of 4096 row lengths, and return five numbers: for each row,
  a masked divergence of the start predictions, one of the end predictions, an unmasked attention loss and a masked,
  scaled ratio loss; then the mean of each over the rows (the attention mean halved), preceded by their total. A
  position of a row counts in a masked sum when it lies below the row's length.

  The kernel works on sixteen blocks of 256 rows and leaves out the positions that do not count by CHOOSING zero for
  them; the reference works on whole arrays and leaves them out by MULTIPLYING by a mask of zeros and ones. On the
  extended reals `x * 1 = x` and `x * 0 = 0` hold for every `x`, infinite ones included, so each summand is the same on
  both sides, whatever the inputs hold (the precondition is not used); each row's four losses are then the same, the
  sixteen blocks tile the 4096 rows, and the last stretch — means, halving, total — is literally the same in both.

  * the frames of the two kernel programs: the run around the one launch (`Fr.frame`, at any reading of the floats);
  * the frame of the reference: its run with the result dropped;
  * nothing was rewritten when the kernel was idealized, so there is nothing to preserve;
  * the values: `Outcome.run_value` names the kernel's five results, `Bridge.outcome_eq` equates them with the reference's.
-/
import proofs.«100875_j51651276701971_2_alg».proof.Defs
import proofs.«100875_j51651276701971_2_alg».proof.Proof.Gen.Kernel
import proofs.«100875_j51651276701971_2_alg».proof.Proof.Gen.KernelIdeal
import proofs.«100875_j51651276701971_2_alg».proof.Proof.Gen.ReferenceIdeal
import proofs.«100875_j51651276701971_2_alg».proof.Proof.Gen.Pre_finite_inputs
import proofs.«100875_j51651276701971_2_alg».proof.Proof.Gen.ReferenceIdeal.Run
import proofs.«100875_j51651276701971_2_alg».proof.Proof.Gen.ReferenceIdeal.Read
import proofs.«100875_j51651276701971_2_alg».proof.Proof.KernelFrame
import proofs.«100875_j51651276701971_2_alg».proof.Proof.KernelIdealFrame
import proofs.«100875_j51651276701971_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Fr.frame m ρ

theorem frame_ideal : Cert.frame_KernelIdeal := fun m ρ _ => Cert.KernelIdeal.Fr.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run to the end from memories that agree on the arguments, and return the same five numbers. -/
theorem algebraic : Cert.algebraic_KernelIdeal_ReferenceIdeal := by
  intro m ρ m' ρ' _ hagree
  refine ⟨fun c => Cert.KernelIdeal.Outcome.outcome m c, Cert.KernelIdeal.Outcome.run_value m ρ, ?_⟩
  refine (θ_run Cert.ReferenceIdeal.defs _ _).mono (fun _ h c => ⟨(h c).1.trans ?_, (h c).2⟩)
    (Cert.ReferenceIdeal.Value.run (F := Ideal) m' ρ')
  exact Cert.Bridge.outcome_eq m c m' (hagree c)

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
